-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part5 {F : FTy → Type} [FloatOps F] (main_arg22 : FVec F S40 .f32) (main_v83 : IVec S_ 1) (main_v84 : FVec F S40x128 .f32) (main_cst_32 : FVec F S_ .f32) : IVec S_ 1 :=
  let main_v85 : FVec F S40x128 .f32 := broadcastInDim S40x128 ![] bcast_S_S40x128 main_cst_32
  let main_v86 : IVec S40x128 1 := cmpf .olt main_v84 main_v85
  let main_c_33 : IVec S_ 1 := constantI S_ 1 1#1
  let main_v87 : IVec S_ 1 := (fun x v => Host.reduce IntOp.andi x v reducesTo_S40x128_S_d0_1 h_S_) main_v86 main_c_33
  let main_v88 : IVec S_ 1 := andi main_v83 main_v87
  let main_v89 : FVec F S40 .f32 := Host.absf main_arg22
  let main_cst_34 : FVec F S_ .f32 := constant S_ .f32 0x7F800000#32
  let main_v90 : FVec F S40 .f32 := broadcastInDim S40 ![] bcast_S_S40 main_cst_34
  let main_v91 : IVec S40 1 := cmpf .olt main_v89 main_v90
  let main_c_35 : IVec S_ 1 := constantI S_ 1 1#1
  let main_v92 : IVec S_ 1 := (fun x v => Host.reduce IntOp.andi x v reducesTo_S40_S_d0 h_S_) main_v91 main_c_35
  let main_v93 : IVec S_ 1 := andi main_v88 main_v92
  main_v93

def fn_part4 {F : FTy → Type} [FloatOps F] (main_arg18 : FVec F S128 .f32) (main_arg19 : FVec F S128 .f32) (main_arg20 : FVec F S128 .f32) (main_arg21 : FVec F S40x128 .f32) (main_arg22 : FVec F S40 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg20
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S40x128 .f32 := Host.absf main_arg21
  let main_cst_32 : FVec F S_ .f32 := constant S_ .f32 0x7F800000#32
  fn_part5 (F := F) main_arg22 main_v83 main_v84 main_cst_32

def fn_part3 {F : FTy → Type} [FloatOps F] (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S40x128 .f32) (main_arg22 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_arg22 main_v63 main_v67

def fn_part2 {F : FTy → Type} [FloatOps F] (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S40x128 .f32) (main_arg22 : FVec F S40 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_arg19 main_arg20 main_arg21 main_arg22 main_v48 main_v49 main_v50

def fn_part1 {F : FTy → Type} [FloatOps F] (main_arg8 : FVec F S1600000 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S40x128 .f32) (main_arg22 : FVec F S40 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S1600000 .f32 := Host.absf main_arg8
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_v33

def fn {F : FTy → Type} [FloatOps F] (main_arg0 : FVec F S100000x128 .f32) (main_arg1 : FVec F S100000x1 .f32) (main_arg2 : FVec F S100000x1 .f32) (main_arg3 : IVec S1600000 32) (main_arg4 : IVec S1600000 32) (main_arg5 : FVec F S1600000 .f32) (main_arg6 : IVec S1600000 32) (main_arg7 : IVec S1600000 32) (main_arg8 : FVec F S1600000 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S40x128 .f32) (main_arg22 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S1600000 .f32 := Host.absf main_arg5
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_v13 main_v16
-- ==== Kernel.lean ====
abbrev S100000x128 : Shape := ⟨2, ![100000, 128]⟩
abbrev S100000x1 : Shape := ⟨2, ![100000, 1]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S5000x128 : Shape := ⟨2, ![5000, 128]⟩
abbrev S5000x1 : Shape := ⟨2, ![5000, 1]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩

abbrev nBuf : Space → Nat
  | .hbm => 86
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S100000x1, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S1600000, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S40x128, .f32⟩
  | .hbm, ⟨22, _⟩ => ⟨S40, .f32⟩
  | .hbm, ⟨23, _⟩ => ⟨S100000x128, .f32⟩
  | .hbm, ⟨24, _⟩ => ⟨S1600000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S1600000x1, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S100000x128, .f32⟩
  | .hbm, ⟨68, _⟩ => ⟨S1600000x1, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S1600000x128, .f32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S1x40, .f32⟩
  | .hbm, ⟨85, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S40x128, .f32⟩
  | .local _ .vmem, ⟨31, _⟩ => ⟨S1x40, .f32⟩
  | .local _ .vmem, ⟨32, _⟩ => ⟨S5000x40, .f32⟩
  | .local _ .vmem, ⟨33, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_c : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_1 : Ref sig .tc := ⟨.hbm, 47, rfl⟩
abbrev main_v21 : Ref sig .tc := ⟨.hbm, 48, rfl⟩
abbrev main_v22 : Ref sig .tc := ⟨.hbm, 49, rfl⟩
abbrev main_c_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_4 : Ref sig .tc := ⟨.hbm, 69, rfl⟩
abbrev main_v40 : Ref sig .tc := ⟨.hbm, 70, rfl⟩
abbrev main_v41 : Ref sig .tc := ⟨.hbm, 71, rfl⟩
abbrev main_c_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S40x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S40x128_S40x128_0_0 : ∀ a, (![0, 0] : Fin 2 → Nat) a + S40x128.size a ≤ S40x128.size a
  h_S40x128 : 0 < S40x128.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_1_0_0_n_n_wf : DotDims.WF S5000x128 S128x128 S5000x128 [1] [1] [0] [0] [] []
  dot_S5000x128_S40x128_S5000x40_1_1_0_0_n_n_wf : DotDims.WF S5000x128 S40x128 S5000x40 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S40x128.size a ≤ S40x128.size a
  hwx3_1 : ∀ i : grid3.Coords, EltTy.bits .f32 = 32 ∨ (Rect.block (s := S40x128) S40x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S5000x128_S40x128_S5000x40_1_1_0_0_n_n : DotDims S5000x128 S40x128 S5000x40 where
  lhsContracting := [1]
  rhsContracting := [1]
  lhsNonContracting := [0]
  rhsNonContracting := [0]
  lhsBatch := []
  rhsBatch := []
  wf := dot_S5000x128_S40x128_S5000x40_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg15) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v38) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg21) S40x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩
abbrev S100000 : Shape := ⟨1, ![100000]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S100000x1, .f32⟩
  | 2 => ⟨S100000x1, .f32⟩
  | 3 => ⟨S1600000, .i32⟩
  | 4 => ⟨S1600000, .i32⟩
  | 5 => ⟨S1600000, .f32⟩
  | 6 => ⟨S1600000, .i32⟩
  | 7 => ⟨S1600000, .i32⟩
  | 8 => ⟨S1600000, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S40x128, .f32⟩
  | 22 => ⟨S40, .f32⟩
  | 23 => ⟨S100000x128, .f32⟩
  | 24 => ⟨S100000x128, .f32⟩
  | 25 => ⟨S1600000x1, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S1600000x128, .f32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x128, .f32⟩
  | 42 => ⟨S100000x128, .f32⟩
  | 43 => ⟨S128x128, .f32⟩
  | 44 => ⟨S100000x128, .f32⟩
  | 45 => ⟨S1x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S128, .f32⟩
  | 53 => ⟨S128, .f32⟩
  | 54 => ⟨S128, .f32⟩
  | 55 => ⟨S1x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S1600000x1, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S1600000x128, .f32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S128x128, .f32⟩
  | 84 => ⟨S100000x128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S1600000x1, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S1600000x128, .f32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S128x40, .f32⟩
  | 124 => ⟨S100000x40, .f32⟩
  | 125 => ⟨S1x40, .f32⟩
  | 126 => ⟨S100000x40, .f32⟩
  | 127 => ⟨S100000x40, .f32⟩
  | _ => ⟨S100000x128, .f32⟩

abbrev hbmTy0_1 (i : Nat) : BufTy := match i % 128 with
  | 0 => ⟨S_, .f32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x40, .f32⟩
  | 7 => ⟨S100000x40, .f32⟩
  | 8 => ⟨S100000x40, .f32⟩
  | 9 => ⟨S_, .f32⟩
  | 10 => ⟨S100000, .f32⟩
  | 11 => ⟨S100000x1, .f32⟩
  | 12 => ⟨S100000x1, .f32⟩
  | 13 => ⟨S100000x40, .f32⟩
  | 14 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_c : Ref sig .tc := ⟨.hbm, 26, rfl⟩
abbrev main_v3 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_1 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call0_cst : Ref sig .tc := ⟨.hbm, 64, rfl⟩
abbrev main_call0_v0 : Ref sig .tc := ⟨.hbm, 65, rfl⟩
abbrev main_v37 : Ref sig .tc := ⟨.hbm, 66, rfl⟩
abbrev main_v38 : Ref sig .tc := ⟨.hbm, 67, rfl⟩
abbrev main_c_2 : Ref sig .tc := ⟨.hbm, 68, rfl⟩
abbrev main_v39 : Ref sig .tc := ⟨.hbm, 69, rfl⟩
abbrev main_v40 : Ref sig .tc := ⟨.hbm, 70, rfl⟩
abbrev main_c_3 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_4 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_5 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call1_cst : Ref sig .tc := ⟨.hbm, 104, rfl⟩
abbrev main_call1_v0 : Ref sig .tc := ⟨.hbm, 105, rfl⟩
abbrev main_v71 : Ref sig .tc := ⟨.hbm, 106, rfl⟩
abbrev main_v72 : Ref sig .tc := ⟨.hbm, 107, rfl⟩
abbrev main_c_6 : Ref sig .tc := ⟨.hbm, 108, rfl⟩
abbrev main_v73 : Ref sig .tc := ⟨.hbm, 109, rfl⟩
abbrev main_v74 : Ref sig .tc := ⟨.hbm, 110, rfl⟩
abbrev main_c_7 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_8 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_call2_cst : Ref sig .tc := ⟨.hbm, 128, rfl⟩
abbrev main_call2_v0 : Ref sig .tc := ⟨.hbm, 129, rfl⟩
abbrev main_call2_cst_0 : Ref sig .tc := ⟨.hbm, 130, rfl⟩
abbrev main_call2_v1 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_call2_v5 : Ref sig .tc := ⟨.hbm, 135, rfl⟩
abbrev main_call2_v6 : Ref sig .tc := ⟨.hbm, 136, rfl⟩
abbrev main_call2_cst_1 : Ref sig .tc := ⟨.hbm, 137, rfl⟩
abbrev main_call2_v7 : Ref sig .tc := ⟨.hbm, 138, rfl⟩
abbrev main_call2_v8 : Ref sig .tc := ⟨.hbm, 139, rfl⟩
abbrev main_call2_v9 : Ref sig .tc := ⟨.hbm, 140, rfl⟩
abbrev main_call2_v10 : Ref sig .tc := ⟨.hbm, 141, rfl⟩
abbrev main_v90 : Ref sig .tc := ⟨.hbm, 142, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.KernelRun.lean ====
/-
  The idealized kernel's run, with every buffer named.

  @main is four tiled stages with stretches of host operations between them. Its run is a fold through these seven
  segments: a stretch of host operations leaves each buffer at the operations' results from what it found, and a tiled
  stage leaves each of its arrays at what its blocks' write-backs leave and every other buffer as it found it. The frame
  certificate runs this fold and keeps, of the final state, only that the arguments are unchanged; here the same run is
  stated with the whole of the final state kept: every weakly fair execution terminates, nothing faulting, with EVERY
  unscoped buffer of every core at the fold's last contents `W7`. The result array is one of them.
-/
import proofs.«144697_j54065048323073_1_alg».proof.Proof.KernelIdealFrame

set_option maxRecDepth 16384

noncomputable section

namespace Cert.KernelIdeal.RunAll

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last contents of the fold through @main's segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

end Cert.KernelIdeal.RunAll

end
-- ==== Proof.Spec.lean ====
/-
  The mathematics of the network, one entry at a time.

  A three-layer graph convolution. Each layer multiplies the node features by a sparse adjacency matrix (outside this
  file: both programs spell that product identically) and then applies, row by row, a dense stage:

    * `prescale`  : each row of `x` scaled by that row's entry of a column, `x(r, c) · s(r, 0)`;
    * `layer`     : `X · Wᵀ` plus a bias, normalised by running statistics and rectified:
                     `max (((Σ_c X(r,c)·W(q,c)) + b q − μ q) · rsqrt (σ² q + ε) · γ q + β q) 0`;
    * `logits`    : `X · Wᵀ` plus a bias;
    * `logSoftmax`: each row shifted by its maximum `M` and by `log Σ exp (· − M)`.

  Every dense stage is ROW-LOCAL: row `r` of its result depends on row `r` of its matrix argument only. So the stage
  applied to a block of 5000 consecutive rows is that block of the stage applied to all rows (`*_rowsBlock`), which is
  what lets a result computed block by block be compared with one computed at once.
-/
import Idealize.ShloMosaic.PureOps.Ideal
import Idealize.ShloMosaic.Lib.ValueIdx

noncomputable section

namespace Cert.GraphConv

open Idealize.ShloMosaic Idealize.ShloMosaic.ValueIdx

/-- An `a × b` matrix of extended reals. -/
abbrev Mat (a b : ℕ) : Type := (⟨2, ![a, b]⟩ : Shape).Idx → EReal

/-- The row coordinate of a matrix index. -/
abbrev rowOf {a b : ℕ} (i : (⟨2, ![a, b]⟩ : Shape).Idx) : Fin a := ⟨(i 0).val, (i 0).isLt⟩
/-- The column coordinate of a matrix index. -/
abbrev colOf {a b : ℕ} (i : (⟨2, ![a, b]⟩ : Shape).Idx) : Fin b := ⟨(i 1).val, (i 1).isLt⟩

/-- A one-row matrix as a function of the column: the form a per-feature parameter takes once reshaped to `[1, o]`. -/
abbrev rowFn {o : ℕ} (v : Mat 1 o) : Fin o → EReal := fun q => v (ix2 (0 : Fin 1) q)

/-- A vector as a function of its position: the form a per-feature parameter has as an argument. -/
abbrev vecFn {o : ℕ} (v : (⟨1, ![o]⟩ : Shape).Idx → EReal) : Fin o → EReal := fun q => v (ix1 q)

/-- The normalisation's ε: the single-precision number nearest 10⁻⁵, the same word in both programs. -/
def eps : EReal := Ideal.ofBits .f32 0x3727C5AC#32

/-- The value every row maximum starts from: the single-precision −∞. -/
def negInf : EReal := Ideal.ofBits .f32 0xFF800000#32

/-- Bias, normalisation by running mean `μ` and variance `σ²`, scale `γ`, shift `β`, rectifier — on one entry. -/
def normRelu (y b μ σ2 γ β : EReal) : EReal :=
  max ((y + b - μ) * Ideal.rsqrt (σ2 + eps) * γ + β) 0

/-- `X · Wᵀ` at `(r, q)`: the row `r` of `X` against the row `q` of `W`. -/
def dotT {n k o : ℕ} (X : Mat n k) (W : Mat o k) (r : Fin n) (q : Fin o) : EReal :=
  ∑ c : Fin k, X (ix2 r c) * W (ix2 q c)

/-- Each row of `x` scaled by that row's entry of the column `s`. -/
def prescale {n c : ℕ} (x : Mat n c) (s : Mat n 1) : Mat n c :=
  fun i => x i * s (ix2 (rowOf i) (0 : Fin 1))

/-- A hidden layer's dense stage: `X · Wᵀ`, bias, normalisation, rectifier. -/
def layer {n k o : ℕ} (X : Mat n k) (W : Mat o k) (b γ β μ σ2 : Fin o → EReal) : Mat n o :=
  fun i => normRelu (dotT X W (rowOf i) (colOf i)) (b (colOf i)) (μ (colOf i)) (σ2 (colOf i)) (γ (colOf i)) (β (colOf i))

/-- The last layer's scores: `X · Wᵀ` plus the bias. -/
def logits {n k o : ℕ} (X : Mat n k) (W : Mat o k) (b : Fin o → EReal) : Mat n o :=
  fun i => dotT X W (rowOf i) (colOf i) + b (colOf i)

/-- The maximum a row is shifted by: the row's maximum from −∞, once more against −∞. -/
def rowShift {n o : ℕ} (y : Mat n o) (r : Fin n) : EReal :=
  max negInf ((Finset.univ : Finset (Fin o)).fold max negInf (fun k => y (ix2 r k)))

/-- The logarithm of the softmax along each row. -/
def logSoftmax {n o : ℕ} (y : Mat n o) : Mat n o :=
  fun i => (y i - rowShift y (rowOf i)) - Ideal.log (∑ k : Fin o, Ideal.exp (y (ix2 (rowOf i) k) - rowShift y (rowOf i)))

/-! ## Blocks of 5000 consecutive rows -/

/-- Rows `5000·t, …, 5000·t + 4999` of a matrix with 100000 rows. -/
def rowsBlock {c : ℕ} (A : Mat 100000 c) (t : Fin 20) : Mat 5000 c :=
  fun y => A (ix2 (⟨5000 * t.val + (y 0).val, by
    have h : (y 0).val < 5000 := (y 0).isLt
    have ht := t.isLt
    omega⟩ : Fin 100000) (colOf y))

theorem prescale_rowsBlock {c : ℕ} (x : Mat 100000 c) (s : Mat 100000 1) (t : Fin 20) :
    prescale (rowsBlock x t) (rowsBlock s t) = rowsBlock (prescale x s) t := rfl

theorem layer_rowsBlock {k o : ℕ} (X : Mat 100000 k) (W : Mat o k) (b γ β μ σ2 : Fin o → EReal) (t : Fin 20) :
    layer (rowsBlock X t) W b γ β μ σ2 = rowsBlock (layer X W b γ β μ σ2) t := rfl

theorem logits_rowsBlock {k o : ℕ} (X : Mat 100000 k) (W : Mat o k) (b : Fin o → EReal) (t : Fin 20) :
    logits (rowsBlock X t) W b = rowsBlock (logits X W b) t := rfl

theorem logSoftmax_rowsBlock {o : ℕ} (y : Mat 100000 o) (t : Fin 20) :
    logSoftmax (rowsBlock y t) = rowsBlock (logSoftmax y) t := rfl

end Cert.GraphConv

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.Pay.lean ====
/-
  What each of the four tiled stages computes on one block of 5000 rows.

  A stage's body loads its blocks, computes one value and stores it; that value, as a function of the loaded blocks, is
  the stage of `Spec.lean` applied to the block:

    * the first stage scales each row of `x` by that row's entry of `M`;
    * the two hidden stages form `(s · AM) · Wᵀ` (resp. `s · Wᵀ`) on the matrix unit — a sum over the 128 features, the
      narrowing of the operands to half precision being the identity on exact values —, add the bias, normalise by the
      running statistics, scale, shift and rectify, the per-feature parameters arriving as one-row matrices spread over
      the rows;
    * the last stage forms `s · Wᵀ + b` and takes the logarithm of the softmax of each row: the row maximum (from −∞) is
      kept as a column and spread over the lanes, subtracted, exponentiated, summed along the row, the logarithm of the
      sum kept as a column, spread and subtracted.
-/
import proofs.«144697_j54065048323073_1_alg».proof.Proof.Gen.KernelIdeal.Skeleton
import proofs.«144697_j54065048323073_1_alg».proof.Proof.Spec
import proofs.«144697_j54065048323073_1_alg».proof.Proof.LibMatmulT
import proofs.«144697_j54065048323073_1_alg».proof.Proof.LibRowReduce
import proofs.«144697_j54065048323073_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.GraphConv Idealize.ShloMosaic Idealize.ShloMosaic.ValueIdx

/-! ## The pieces that are not entry by entry -/

/-- The reciprocal square root of a vector, at an entry. -/
theorem rsqrt_apply {s : Shape} {φ : FTy} (v : FVec Ideal s φ) (i : s.Idx) : rsqrt v i = Ideal.rsqrt (v i) := rfl
/-- The exponential of a vector, at an entry. -/
theorem exp_apply {s : Shape} {φ : FTy} (v : FVec Ideal s φ) (i : s.Idx) : exp v i = Ideal.exp (v i) := rfl
/-- The logarithm of a vector, at an entry. -/
theorem log_apply {s : Shape} {φ : FTy} (v : FVec Ideal s φ) (i : s.Idx) : log v i = Ideal.log (v i) := rfl

/-- The matrix unit's `x · wᵀ` into zeros for a 128-wide result, at `(p, q)`: row `p` of `x` against row `q` of `w`. -/
theorem dense128_apply (x : FVec Ideal S5000x128 .bf16) (w : FVec Ideal S128x128 .bf16) (p : Fin 5000) (q : Fin 128) :
    matmul dot_S5000x128_S128x128_S5000x128_1_1_0_0_n_n none x w (constant S5000x128 .f32 0x00000000#32) (ix2 p q)
      = ∑ c : Fin 128, x (ix2 p c) * w (ix2 q c) :=
  MatmulT.matmul_zero_apply dot_S5000x128_S128x128_S5000x128_1_1_0_0_n_n_wf none x w p q

/-- The same for the 40-wide result of the last stage. -/
theorem dense40_apply (x : FVec Ideal S5000x128 .bf16) (w : FVec Ideal S40x128 .bf16) (p : Fin 5000) (q : Fin 40) :
    matmul dot_S5000x128_S40x128_S5000x40_1_1_0_0_n_n none x w (constant S5000x40 .f32 0x00000000#32) (ix2 p q)
      = ∑ c : Fin 128, x (ix2 p c) * w (ix2 q c) :=
  MatmulT.matmul_zero_apply dot_S5000x128_S40x128_S5000x40_1_1_0_0_n_n_wf none x w p q

/-- The maximum along each row of a 5000 × 40 block, from −∞, at row `p`. -/
theorem rowMax40_apply (y : FVec Ideal S5000x40 .f32) (hφ : FKind.Formats FTy.f32)
    (hacc : (4286578688#32 : BitVec 32) = 4286578688#32) (p : Fin 5000) :
    multiReduction .maximumf [1] S5000 y (4286578688#32) reduces_S5000x40_S5000 hφ hacc (ix1 p)
      = (Finset.univ : Finset (Fin 40)).fold max (Ideal.ofBits .f32 4286578688#32) (fun k => y (ix2 p k)) :=
  RowReduce.rowMax_apply y (4286578688#32) reduces_S5000x40_S5000 hφ hacc p

/-- The sum along each row of a 5000 × 40 block, at row `p`. -/
theorem rowSum40_apply (y : FVec Ideal S5000x40 .f32) (hφ : FKind.Formats FTy.f32)
    (hacc : (0#32 : BitVec 32) = 0#32) (p : Fin 5000) :
    multiReduction .add [1] S5000 y (0#32) reduces_S5000x40_S5000 hφ hacc (ix1 p) = ∑ k : Fin 40, y (ix2 p k) :=
  RowReduce.rowSum_apply y (0#32) reduces_S5000x40_S5000 hφ hacc p

/-! ## The four stages on a block -/

/-- The first stage on a block: each row of the block of `x` times that row's entry of the block of `M`. -/
theorem pay0_eq (x : Vec Ideal S5000x128 .f32) (mcol : Vec Ideal S5000x1 .f32) :
    k0_pay1 (F := Ideal) x mcol = prescale x mcol := by
  funext j
  obtain ⟨p, q, rfl⟩ : ∃ (p : Fin 5000) (q : Fin 128), j = ix2 p q := ⟨j 0, j 1, eq_ix2 j⟩
  unfold k0_pay1
  simp only [mulf_apply, Keepdims.broadcastTo_a1_ab_apply]
  rfl

/-- The second stage on a block: `(s · AM) · W₀ᵀ`, bias, normalisation, rectifier. -/
theorem pay1_eq (s : Vec Ideal S5000x128 .f32) (am : Vec Ideal S5000x1 .f32) (w : Vec Ideal S128x128 .f32)
    (b μ σ2 γ β : Vec Ideal S1x128 .f32) :
    k1_pay1 (F := Ideal) s am w b μ σ2 γ β
      = layer (prescale s am) w (rowFn b) (rowFn γ) (rowFn β) (rowFn μ) (rowFn σ2) := by
  funext j
  obtain ⟨p, q, rfl⟩ : ∃ (p : Fin 5000) (q : Fin 128), j = ix2 p q := ⟨j 0, j 1, eq_ix2 j⟩
  unfold k1_pay1
  simp only [shapeCast_self, maximumf_apply, addf_apply, subf_apply, mulf_apply, rsqrt_apply, truncf_apply, broadcast_apply,
    dense128_apply, broadcastTo_1b_ab_apply, Keepdims.broadcastTo_a1_ab_apply]
  unfold layer normRelu dotT prescale eps
  rw [show (Scalar.ofBits .f32 0x00000000#32 : Ideal .f32) = 0 from Ideal.ofBits_zero_f32]
  rfl

/-- The third stage on a block: `s · W₁ᵀ`, bias, normalisation, rectifier. -/
theorem pay2_eq (s : Vec Ideal S5000x128 .f32) (w : Vec Ideal S128x128 .f32) (b μ σ2 γ β : Vec Ideal S1x128 .f32) :
    k2_pay1 (F := Ideal) s w b μ σ2 γ β = layer s w (rowFn b) (rowFn γ) (rowFn β) (rowFn μ) (rowFn σ2) := by
  funext j
  obtain ⟨p, q, rfl⟩ : ∃ (p : Fin 5000) (q : Fin 128), j = ix2 p q := ⟨j 0, j 1, eq_ix2 j⟩
  unfold k2_pay1
  simp only [shapeCast_self, maximumf_apply, addf_apply, subf_apply, mulf_apply, rsqrt_apply, truncf_apply, broadcast_apply,
    dense128_apply, broadcastTo_1b_ab_apply]
  unfold layer normRelu dotT eps
  rw [show (Scalar.ofBits .f32 0x00000000#32 : Ideal .f32) = 0 from Ideal.ofBits_zero_f32]
  rfl

/-- The last stage's scores on a block: `s · W₂ᵀ + b`. -/
theorem scores_eq (s : Vec Ideal S5000x128 .f32) (w : Vec Ideal S40x128 .f32) (b : Vec Ideal S1x40 .f32) :
    (addf (matmul dot_S5000x128_S40x128_S5000x40_1_1_0_0_n_n none (truncf .bf16 s bitsLt_bf16_f32) (truncf .bf16 w bitsLt_bf16_f32)
        (constant S5000x40 .f32 0x00000000#32)) (broadcastTo S5000x40 b broadcasts_S1x40_S5000x40) : FVec Ideal S5000x40 .f32)
      = logits s w (rowFn b) := by
  funext j
  obtain ⟨p, q, rfl⟩ : ∃ (p : Fin 5000) (q : Fin 40), j = ix2 p q := ⟨j 0, j 1, eq_ix2 j⟩
  simp only [addf_apply, truncf_apply, dense40_apply, broadcastTo_1b_ab_apply]
  rfl

/-- The row shift as the stage forms it: the row maxima from −∞, once more against −∞, kept as a column and spread over
    the 40 lanes. At `(p, k)` it is row `p`'s shift. -/
theorem shift_apply (Y : FVec Ideal S5000x40 .f32) (hφ : FKind.Formats FTy.f32)
    (h3 : (4286578688#32 : BitVec 32) = 4286578688#32) (p : Fin 5000) (k : Fin 40) :
    broadcastTo S5000x40 (shapeCast S5000x1 (maximumf (broadcast S5000 (Scalar.ofBits .f32 0xFF800000#32))
        (multiReduction .maximumf [1] S5000 Y (4286578688#32) reduces_S5000x40_S5000 hφ h3)) shapeCasts_S5000_S5000x1)
      broadcasts_S5000x1_S5000x40 (ix2 p k) = rowShift Y p :=
  (Keepdims.broadcastTo_a1_ab_apply _ broadcasts_S5000x1_S5000x40 p k).trans
    ((Keepdims.shapeCast_a_a1_apply _ shapeCasts_S5000_S5000x1 p (0 : Fin 1)).trans
      (congrArg (max (Ideal.ofBits .f32 0xFF800000#32)) (rowMax40_apply Y hφ h3 p)))

/-- The stage's tail on any block of scores `Y`: shift each row by its maximum, subtract the logarithm of the row's sum of
    exponentials (kept as a column and spread over the lanes). It is the logarithm of the softmax of each row. -/
theorem tail_apply (Y : FVec Ideal S5000x40 .f32) (hφ : FKind.Formats FTy.f32)
    (h3 : (4286578688#32 : BitVec 32) = 4286578688#32) (h4 : (0#32 : BitVec 32) = 0#32) (p : Fin 5000) (q : Fin 40) :
    subf (subf Y (broadcastTo S5000x40 (shapeCast S5000x1 (maximumf (broadcast S5000 (Scalar.ofBits .f32 0xFF800000#32))
          (multiReduction .maximumf [1] S5000 Y (4286578688#32) reduces_S5000x40_S5000 hφ h3)) shapeCasts_S5000_S5000x1)
        broadcasts_S5000x1_S5000x40))
      (broadcastTo S5000x40 (log (shapeCast S5000x1 (multiReduction .add [1] S5000
          (exp (subf Y (broadcastTo S5000x40 (shapeCast S5000x1 (maximumf (broadcast S5000 (Scalar.ofBits .f32 0xFF800000#32))
            (multiReduction .maximumf [1] S5000 Y (4286578688#32) reduces_S5000x40_S5000 hφ h3)) shapeCasts_S5000_S5000x1)
            broadcasts_S5000x1_S5000x40)))
          (0#32) reduces_S5000x40_S5000 hφ h4) shapeCasts_S5000_S5000x1)) broadcasts_S5000x1_S5000x40) (ix2 p q)
      = logSoftmax Y (ix2 p q) := by
  have hsum : multiReduction .add [1] S5000
        (exp (subf Y (broadcastTo S5000x40 (shapeCast S5000x1 (maximumf (broadcast S5000 (Scalar.ofBits .f32 0xFF800000#32))
          (multiReduction .maximumf [1] S5000 Y (4286578688#32) reduces_S5000x40_S5000 hφ h3)) shapeCasts_S5000_S5000x1)
          broadcasts_S5000x1_S5000x40)))
        (0#32) reduces_S5000x40_S5000 hφ h4 (ix1 p) = ∑ k : Fin 40, Ideal.exp (Y (ix2 p k) - rowShift Y p) :=
    (rowSum40_apply _ hφ h4 p).trans (Finset.sum_congr rfl fun k _ =>
      congrArg (fun d => Ideal.exp (Y (ix2 p k) - d)) (shift_apply Y hφ h3 p k))
  have hlog : broadcastTo S5000x40 (log (shapeCast S5000x1 (multiReduction .add [1] S5000
          (exp (subf Y (broadcastTo S5000x40 (shapeCast S5000x1 (maximumf (broadcast S5000 (Scalar.ofBits .f32 0xFF800000#32))
            (multiReduction .maximumf [1] S5000 Y (4286578688#32) reduces_S5000x40_S5000 hφ h3)) shapeCasts_S5000_S5000x1)
            broadcasts_S5000x1_S5000x40)))
          (0#32) reduces_S5000x40_S5000 hφ h4) shapeCasts_S5000_S5000x1)) broadcasts_S5000x1_S5000x40 (ix2 p q)
        = Ideal.log (∑ k : Fin 40, Ideal.exp (Y (ix2 p k) - rowShift Y p)) :=
    (Keepdims.broadcastTo_a1_ab_apply _ broadcasts_S5000x1_S5000x40 p q).trans
      (congrArg Ideal.log ((Keepdims.shapeCast_a_a1_apply _ shapeCasts_S5000_S5000x1 p (0 : Fin 1)).trans hsum))
  exact congrArg₂ (fun d l => Y (ix2 p q) - d - l) (shift_apply Y hφ h3 p q) hlog

/-- The last stage on a block: the logarithm of the softmax of each row of `s · W₂ᵀ + b`. -/
theorem pay3_eq (s : Vec Ideal S5000x128 .f32) (w : Vec Ideal S40x128 .f32) (b : Vec Ideal S1x40 .f32) :
    k3_pay1 (F := Ideal) s w b = logSoftmax (logits s w (rowFn b)) := by
  funext j
  obtain ⟨p, q, rfl⟩ : ∃ (p : Fin 5000) (q : Fin 40), j = ix2 p q := ⟨j 0, j 1, eq_ix2 j⟩
  unfold k3_pay1
  simp only [shapeCast_self]
  rw [← scores_eq]
  exact tail_apply _ _ _ _ p q

end Cert.KernelIdeal.Payload

end
-- ==== Proof.Stage0.lean ====
/-
  The first tiled stage as one function of its arrays.

  The stage runs over 20 grid points; point `t` reads rows `5000·t … 5000·t + 4999` of `x` and of the column `M` and writes
  the same rows of its result. What point `t` writes back is therefore block `t` of `prescale x M` (each row of `x` scaled by
  that row's entry of `M`), and since the 20 blocks tile the 100000 rows — row `r` lies in block `r / 5000` — the result
  array ends holding `prescale x M`, whatever the stage's entry contents `V` hold elsewhere.
-/
import proofs.«144697_j54065048323073_1_alg».proof.Proof.KernelIdealFrame
import proofs.«144697_j54065048323073_1_alg».proof.Proof.Pay
import Idealize.ShloMosaic.Lib.Pipeline.Value

noncomputable section

namespace Cert.KernelIdeal.Stage0

open Cert.KernelIdeal Cert.KernelIdeal.Gen Cert.KernelIdeal.GenP Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below 20. -/
abbrev pt (t : Fin cfg0.N) : Fin 20 := ⟨t.val, lt_of_lt_of_eq t.isLt N_0⟩

/-- The printed index maps, decided over the grid: a window that moves with the point has block index `(t, 0)`, a window
    that stays has block index `(0, 0)`. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0 :=
  (by decide +kernel : ∀ t : Fin grid0.N, _)

/-- Point `t`'s block of window 0's array is its rows `5000·t …`. -/
theorem iblk_0 (c : Dev nD) (t : Fin cfg0.N) : iblk0 V c 0 t = rowsBlock (V c main_arg0) (pt t) := by
  funext y
  obtain ⟨e0, e1, -⟩ := idx_facts t
  show V c main_arg0 (((cfg0.win 0).blk t).view.emb y) = V c main_arg0 _
  refine congrArg (V c main_arg0) (funext fun a => Fin.ext ?_)
  match a with
  | ⟨0, _⟩ => show win0_0.index t (0 : Fin 2) * 5000 + 1 * (y 0).val = 5000 * t.val + (y 0).val; omega
  | ⟨1, _⟩ => show win0_0.index t (1 : Fin 2) * 128 + 1 * (y 1).val = (y 1).val; omega

/-- Point `t`'s block of window 1's array is its rows `5000·t …`. -/
theorem iblk_1 (c : Dev nD) (t : Fin cfg0.N) : iblk0 V c 1 t = rowsBlock (V c main_arg1) (pt t) := by
  funext y
  obtain ⟨-, -, e0, e1, -⟩ := idx_facts t
  show V c main_arg1 (((cfg0.win 1).blk t).view.emb y) = V c main_arg1 _
  refine congrArg (V c main_arg1) (funext fun a => Fin.ext ?_)
  match a with
  | ⟨0, _⟩ => show win0_1.index t (0 : Fin 2) * 5000 + 1 * (y 0).val = 5000 * t.val + (y 0).val; omega
  | ⟨1, _⟩ => show win0_1.index t (1 : Fin 2) * 1 + 1 * (y 1).val = (y 1).val; omega

/-- Block `t` of any contents of the result array is its rows `5000·t …`. -/
theorem read_out (G : Mat 100000 128) (t : Fin cfg0.N) :
    ((cfg0.win 2).blk t).view.read (Elt Ideal) G = rowsBlock G (pt t) := by
  funext y
  obtain ⟨-, -, -, -, e0, e1⟩ := idx_facts t
  show G (((cfg0.win 2).blk t).view.emb y) = G _
  refine congrArg G (funext fun a => Fin.ext ?_)
  match a with
  | ⟨0, _⟩ => show win0_2.index t (0 : Fin 2) * 5000 + 1 * (y 0).val = 5000 * t.val + (y 0).val; omega
  | ⟨1, _⟩ => show win0_2.index t (1 : Fin 2) * 128 + 1 * (y 1).val = (y 1).val; omega

/-- The stage's result as one function of its arrays as the stage finds them. -/
abbrev G (c : Dev nD) : Mat 100000 128 := prescale (V c main_arg0) (V c main_arg1)

/-- What point `t` writes back is block `t` of `G`. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  rw [read_out, Payload.pay0_eq]
  simp only [iblk_0, iblk_1]
  exact rfl

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every index of the result array lies in some point's block: row `r` in block `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := lt_of_lt_of_eq (by omega : (i 0).val / 5000 < 20) N_0.symm
  refine ⟨⟨(i 0).val / 5000, ht⟩, flush0_2 _, ?_⟩
  rw [mem_blk]
  obtain ⟨-, -, -, -, e0, e1⟩ := idx_facts ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e1]; omega

/-- The result array after the stage is `G` of the arrays as the stage finds them. -/
theorem final (c : Dev nD) : (dat0 V c).arrAt 2 cfg0.N = G V c :=
  (dat0 V c).arrAt_eq_of_cover 2 _ (fun t _ => flushed_eq V c t) cover

end Cert.KernelIdeal.Stage0

end
-- ==== Proof.Stage1.lean ====
/-
  The second tiled stage (the first hidden layer's dense part) as one function of its arrays.

  Point `t` of the 20 reads rows `5000·t …` of the aggregated features `s` and of the column `AM`, and the whole of the
  weight matrix and of the five one-row parameter arrays (bias, scale, shift, running mean, running variance), and
  writes rows `5000·t …` of its result. A row of the result depends on the same row of `s` and `AM` only, so what point
  `t` writes back is block `t` of `layer (prescale s AM) W b γ β μ σ²`; the 20 blocks tile the rows, so the result array
  ends holding that matrix.
-/
import proofs.«144697_j54065048323073_1_alg».proof.Proof.KernelIdealFrame
import proofs.«144697_j54065048323073_1_alg».proof.Proof.Pay
import Idealize.ShloMosaic.Lib.Pipeline.Value

noncomputable section

namespace Cert.KernelIdeal.Stage1

open Cert.KernelIdeal Cert.KernelIdeal.Gen Cert.KernelIdeal.GenP Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below 20. -/
abbrev pt (t : Fin cfg1.N) : Fin 20 := ⟨t.val, lt_of_lt_of_eq t.isLt N_1⟩

/-- The printed index maps, decided over the grid: a window that moves with the point has block index `(t, 0)`, a window
    that stays has block index `(0, 0)`. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0 :=
  (by decide +kernel : ∀ t : Fin grid1.N, _)

/-- Point `t`'s block of window 0's array is its rows `5000·t …`. -/
theorem iblk_0 (c : Dev nD) (t : Fin cfg1.N) : iblk1 V c 0 t = rowsBlock (V c main_v13) (pt t) := by
  funext y
  obtain ⟨e0, e1, -⟩ := idx_facts t
  show V c main_v13 (((cfg1.win 0).blk t).view.emb y) = V c main_v13 _
  refine congrArg (V c main_v13) (funext fun a => Fin.ext ?_)
  match a with
  | ⟨0, _⟩ => show win1_0.index t (0 : Fin 2) * 5000 + 1 * (y 0).val = 5000 * t.val + (y 0).val; omega
  | ⟨1, _⟩ => show win1_0.index t (1 : Fin 2) * 128 + 1 * (y 1).val = (y 1).val; omega

/-- Point `t`'s block of window 1's array is its rows `5000·t …`. -/
theorem iblk_1 (c : Dev nD) (t : Fin cfg1.N) : iblk1 V c 1 t = rowsBlock (V c main_arg2) (pt t) := by
  funext y
  obtain ⟨-, -, e0, e1, -⟩ := idx_facts t
  show V c main_arg2 (((cfg1.win 1).blk t).view.emb y) = V c main_arg2 _
  refine congrArg (V c main_arg2) (funext fun a => Fin.ext ?_)
  match a with
  | ⟨0, _⟩ => show win1_1.index t (0 : Fin 2) * 5000 + 1 * (y 0).val = 5000 * t.val + (y 0).val; omega
  | ⟨1, _⟩ => show win1_1.index t (1 : Fin 2) * 1 + 1 * (y 1).val = (y 1).val; omega

/-- Window 2 stays: at every point its block is the whole of its array. -/
theorem iblk_2 (c : Dev nD) (t : Fin cfg1.N) : iblk1 V c 2 t = V c main_arg9 := by
  funext y
  obtain ⟨-, -, -, -, e0, e1, -⟩ := idx_facts t
  show V c main_arg9 (((cfg1.win 2).blk t).view.emb y) = V c main_arg9 y
  refine congrArg (V c main_arg9) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3 stays: at every point its block is the whole of its array. -/
theorem iblk_3 (c : Dev nD) (t : Fin cfg1.N) : iblk1 V c 3 t = V c main_v14 := by
  funext y
  obtain ⟨-, -, -, -, -, -, e0, e1, -⟩ := idx_facts t
  show V c main_v14 (((cfg1.win 3).blk t).view.emb y) = V c main_v14 y
  refine congrArg (V c main_v14) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4 stays: at every point its block is the whole of its array. -/
theorem iblk_4 (c : Dev nD) (t : Fin cfg1.N) : iblk1 V c 4 t = V c main_v15 := by
  funext y
  obtain ⟨-, -, -, -, -, -, -, -, e0, e1, -⟩ := idx_facts t
  show V c main_v15 (((cfg1.win 4).blk t).view.emb y) = V c main_v15 y
  refine congrArg (V c main_v15) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5 stays: at every point its block is the whole of its array. -/
theorem iblk_5 (c : Dev nD) (t : Fin cfg1.N) : iblk1 V c 5 t = V c main_v16 := by
  funext y
  obtain ⟨-, -, -, -, -, -, -, -, -, -, e0, e1, -⟩ := idx_facts t
  show V c main_v16 (((cfg1.win 5).blk t).view.emb y) = V c main_v16 y
  refine congrArg (V c main_v16) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6 stays: at every point its block is the whole of its array. -/
theorem iblk_6 (c : Dev nD) (t : Fin cfg1.N) : iblk1 V c 6 t = V c main_v17 := by
  funext y
  obtain ⟨-, -, -, -, -, -, -, -, -, -, -, -, e0, e1, -⟩ := idx_facts t
  show V c main_v17 (((cfg1.win 6).blk t).view.emb y) = V c main_v17 y
  refine congrArg (V c main_v17) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7 stays: at every point its block is the whole of its array. -/
theorem iblk_7 (c : Dev nD) (t : Fin cfg1.N) : iblk1 V c 7 t = V c main_v18 := by
  funext y
  obtain ⟨-, -, -, -, -, -, -, -, -, -, -, -, -, -, e0, e1, -⟩ := idx_facts t
  show V c main_v18 (((cfg1.win 7).blk t).view.emb y) = V c main_v18 y
  refine congrArg (V c main_v18) (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Block `t` of any contents of the result array is its rows `5000·t …`. -/
theorem read_out (G : Mat 100000 128) (t : Fin cfg1.N) :
    ((cfg1.win 8).blk t).view.read (Elt Ideal) G = rowsBlock G (pt t) := by
  funext y
  obtain ⟨-, -, -, -, -, -, -, -, -, -, -, -, -, -, -, -, e0, e1⟩ := idx_facts t
  show G (((cfg1.win 8).blk t).view.emb y) = G _
  refine congrArg G (funext fun a => Fin.ext ?_)
  match a with
  | ⟨0, _⟩ => show win1_8.index t (0 : Fin 2) * 5000 + 1 * (y 0).val = 5000 * t.val + (y 0).val; omega
  | ⟨1, _⟩ => show win1_8.index t (1 : Fin 2) * 128 + 1 * (y 1).val = (y 1).val; omega

/-- The stage's result as one function of its arrays as the stage finds them. -/
abbrev G (c : Dev nD) : Mat 100000 128 := layer (prescale (V c main_v13) (V c main_arg2)) (V c main_arg9) (rowFn (V c main_v14)) (rowFn (V c main_v15)) (rowFn (V c main_v16)) (rowFn (V c main_v17)) (rowFn (V c main_v18))

/-- What point `t` writes back is block `t` of `G`. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz, View.ld_unit_zero (S := S128x128) hz, View.ld_unit_zero (S := S1x128) hz]
  rw [read_out, Payload.pay1_eq]
  simp only [iblk_0, iblk_1, iblk_2, iblk_3, iblk_4, iblk_5, iblk_6, iblk_7]
  exact rfl

/-- An index of the result array is in point `t`'s block iff each coordinate is in the block's range on its axis. -/
theorem mem_blk (t : Fin cfg1.N) (i : S100000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v19).slice (win1_8.rect t)).set ↔ _
  rw [View.set_slice_whole, Rect.mem_set_unit]
  exact Iff.rfl

/-- Every index of the result array lies in some point's block: row `r` in block `r / 5000`. -/
theorem cover (i : S100000x128.Idx) : ∃ t : Fin cfg1.N, (cfg1.win 8).flush t = true ∧ i ∈ ((cfg1.win 8).blk t).view.set := by
  have hi0 : (i 0).val < 100000 := (i 0).isLt
  have hi1 : (i 1).val < 128 := (i 1).isLt
  have ht : (i 0).val / 5000 < cfg1.N := lt_of_lt_of_eq (by omega : (i 0).val / 5000 < 20) N_1.symm
  refine ⟨⟨(i 0).val / 5000, ht⟩, flush1_8 _, ?_⟩
  rw [mem_blk]
  obtain ⟨-, -, -, -, -, -, -, -, -, -, -, -, -, -, -, -, e0, e1⟩ := idx_facts ⟨(i 0).val / 5000, ht⟩
  intro a
  match a with
  | ⟨0, _⟩ =>
    show win1_8.index ⟨(i 0).val / 5000, ht⟩ (0 : Fin 2) * 5000 ≤ (i 0).val ∧ (i 0).val < win1_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_8.index ⟨(i 0).val / 5000, ht⟩ (1 : Fin 2) * 128 ≤ (i 1).val ∧ (i 1).val < win1_8.index ⟨(i 0).val / 5000, ht⟩ (1 : Fin 2) * 128 + 128
    rw [e1]; omega

/-- The result array after the stage is `G` of the arrays as the stage finds them. -/
theorem final (c : Dev nD) : (dat1 V c).arrAt 8 cfg1.N = G V c :=
  (dat1 V c).arrAt_eq_of_cover 8 _ (fun t _ => flushed_eq V c t) cover

end Cert.KernelIdeal.Stage1

end
-- ==== Proof.Stage2.lean ====
/-
  The third tiled stage (the second hidden layer's dense part) as one function of its arrays.

  Point `t` of the 20 reads rows `5000·t …` of the aggregated features `s` and the whole of the weight matrix and of the five
  one-row parameter arrays, and writes rows `5000·t …` of its result: block `t` of `layer s W b γ β μ σ²`. The 20 blocks tile
  the rows, so the result array ends holding that matrix.
-/
import proofs.«144697_j54065048323073_1_alg».proof.Proof.KernelIdealFrame
import proofs.«144697_j54065048323073_1_alg».proof.Proof.Pay
import Idealize.ShloMosaic.Lib.Pipeline.Value

noncomputable section

namespace Cert.KernelIdeal.Stage2

open Cert.KernelIdeal Cert.KernelIdeal.Gen Cert.KernelIdeal.GenP Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below 20. -/
abbrev pt (t : Fin cfg2.N) : Fin 20 := ⟨t.val, lt_of_lt_of_eq t.isLt N_2⟩

/-- The printed index maps, decided over the grid: a window that moves with the point has block index `(t, 0)`, a window
    that stays has block index `(0, 0)`. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

/-- Point `t`'s block of window 0's array is its rows `5000·t …`. -/
theorem iblk_0 (c : Dev nD) (t : Fin cfg2.N) : iblk2 V c 0 t = rowsBlock (V c main_v32) (pt t) := by
  funext y
  obtain ⟨e0, e1, -⟩ := idx_facts t
  show V c main_v32 (((cfg2.win 0).blk t).view.emb y) = V c main_v32 _
  refine congrArg (V c main_v32) (funext fun a => Fin.ext ?_)
  match a with
  | ⟨0, _⟩ => show win2_0.index t (0 : Fin 2) * 5000 + 1 * (y 0).val = 5000 * t.val + (y 0).val; omega
  | ⟨1, _⟩ => show win2_0.index t (1 : Fin 2) * 128 + 1 * (y 1).val = (y 1).val; omega

/-- Window 1 stays: at every point its block is the whole of its array. -/
theorem iblk_1 (c : Dev nD) (t : Fin cfg2.N) : iblk2 V c 1 t = V c main_arg15 := by
  funext y
  obtain ⟨-, -, e0, e1, -⟩ := idx_facts t
  show V c main_arg15 (((cfg2.win 1).blk t).view.emb y) = V c main_arg15 y
  refine congrArg (V c main_arg15) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- Window 2 stays: at every point its block is the whole of its array. -/
theorem iblk_2 (c : Dev nD) (t : Fin cfg2.N) : iblk2 V c 2 t = V c main_v33 := by
  funext y
  obtain ⟨-, -, -, -, e0, e1, -⟩ := idx_facts t
  show V c main_v33 (((cfg2.win 2).blk t).view.emb y) = V c main_v33 y
  refine congrArg (V c main_v33) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3 stays: at every point its block is the whole of its array. -/
theorem iblk_3 (c : Dev nD) (t : Fin cfg2.N) : iblk2 V c 3 t = V c main_v34 := by
  funext y
  obtain ⟨-, -, -, -, -, -, e0, e1, -⟩ := idx_facts t
  show V c main_v34 (((cfg2.win 3).blk t).view.emb y) = V c main_v34 y
  refine congrArg (V c main_v34) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4 stays: at every point its block is the whole of its array. -/
theorem iblk_4 (c : Dev nD) (t : Fin cfg2.N) : iblk2 V c 4 t = V c main_v35 := by
  funext y
  obtain ⟨-, -, -, -, -, -, -, -, e0, e1, -⟩ := idx_facts t
  show V c main_v35 (((cfg2.win 4).blk t).view.emb y) = V c main_v35 y
  refine congrArg (V c main_v35) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5 stays: at every point its block is the whole of its array. -/
theorem iblk_5 (c : Dev nD) (t : Fin cfg2.N) : iblk2 V c 5 t = V c main_v36 := by
  funext y
  obtain ⟨-, -, -, -, -, -, -, -, -, -, e0, e1, -⟩ := idx_facts t
  show V c main_v36 (((cfg2.win 5).blk t).view.emb y) = V c main_v36 y
  refine congrArg (V c main_v36) (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Window 6 stays: at every point its block is the whole of its array. -/
theorem iblk_6 (c : Dev nD) (t : Fin cfg2.N) : iblk2 V c 6 t = V c main_v37 := by
  funext y
  obtain ⟨-, -, -, -, -, -, -, -, -, -, -, -, e0, e1, -⟩ := idx_facts t
  show V c main_v37 (((cfg2.win 6).blk t).view.emb y) = V c main_v37 y
  refine congrArg (V c main_v37) (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Block `t` of any contents of the result array is its rows `5000·t …`. -/
theorem read_out (G : Mat 100000 128) (t : Fin cfg2.N) :
    ((cfg2.win 7).blk t).view.read (Elt Ideal) G = rowsBlock G (pt t) := by
  funext y
  obtain ⟨-, -, -, -, -, -, -, -, -, -, -, -, -, -, e0, e1⟩ := idx_facts t
  show G (((cfg2.win 7).blk t).view.emb y) = G _
  refine congrArg G (funext fun a => Fin.ext ?_)
  match a with
  | ⟨0, _⟩ => show win2_7.index t (0 : Fin 2) * 5000 + 1 * (y 0).val = 5000 * t.val + (y 0).val; omega
  | ⟨1, _⟩ => show win2_7.index t (1 : Fin 2) * 128 + 1 * (y 1).val = (y 1).val; omega

/-- The stage's result as one function of its arrays as the stage finds them. -/
abbrev G (c : Dev nD) : Mat 100000 128 := layer (V c main_v32) (V c main_arg15) (rowFn (V c main_v33)) (rowFn (V c main_v34)) (rowFn (V c main_v35)) (rowFn (V c main_v36)) (rowFn (V c main_v37))

/-- What point `t` writes back is block `t` of `G`. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S5000x128) hz, View.ld_unit_zero (S := S128x128) hz, View.ld_unit_zero (S := S1x128) hz]
  rw [read_out, Payload.pay2_eq]
  simp only [iblk_0, iblk_1, iblk_2, iblk_3, iblk_4, iblk_5, iblk_6]
  exact rfl

/-- An index of the result array is in point `t`'s block iff each coordinate is in the block's range on its axis. -/
theorem mem_blk (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v38).slice (win2_7.rect t)).set ↔ _
  rw [View.set_slice_whole, Rect.mem_set_unit]
  exact Iff.rfl

/-- Every index of the result array lies in some point's block: row `r` in block `r / 5000`. -/
theorem cover (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  have ht : (i 0).val / 5000 < cfg2.N := lt_of_lt_of_eq (by omega : (i 0).val / 5000 < 20) N_2.symm
  refine ⟨⟨(i 0).val / 5000, ht⟩, flush2_7 _, ?_⟩
  rw [mem_blk]
  obtain ⟨-, -, -, -, -, -, -, -, -, -, -, -, -, -, e0, e1⟩ := idx_facts ⟨(i 0).val / 5000, ht⟩
  intro a
  match a with
  | ⟨0, _⟩ =>
    show win2_7.index ⟨(i 0).val / 5000, ht⟩ (0 : Fin 2) * 5000 ≤ (i 0).val ∧ (i 0).val < win2_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_7.index ⟨(i 0).val / 5000, ht⟩ (1 : Fin 2) * 128 ≤ (i 1).val ∧ (i 1).val < win2_7.index ⟨(i 0).val / 5000, ht⟩ (1 : Fin 2) * 128 + 128
    rw [e1]; omega

/-- The result array after the stage is `G` of the arrays as the stage finds them. -/
theorem final (c : Dev nD) : (dat2 V c).arrAt 7 cfg2.N = G V c :=
  (dat2 V c).arrAt_eq_of_cover 7 _ (fun t _ => flushed_eq V c t) cover

end Cert.KernelIdeal.Stage2

end
-- ==== Proof.Stage3.lean ====
/-
  The last tiled stage (the output layer and the logarithm of the softmax) as one function of its arrays.

  Point `t` of the 20 reads rows `5000·t …` of the aggregated features `s` and the whole of the 40 × 128 weight matrix and of
  the one-row bias, and writes rows `5000·t …` of its 40-wide result. The scores of a row and the softmax along it depend
  on that row of `s` only, so what point `t` writes back is block `t` of `logSoftmax (logits s W b)`; the 20 blocks tile
  the rows, so the result array ends holding that matrix.
-/
import proofs.«144697_j54065048323073_1_alg».proof.Proof.KernelIdealFrame
import proofs.«144697_j54065048323073_1_alg».proof.Proof.Pay
import Idealize.ShloMosaic.Lib.Pipeline.Value

noncomputable section

namespace Cert.KernelIdeal.Stage3

open Cert.KernelIdeal Cert.KernelIdeal.Gen Cert.KernelIdeal.GenP Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A grid point as a number below 20. -/
abbrev pt (t : Fin cfg3.N) : Fin 20 := ⟨t.val, lt_of_lt_of_eq t.isLt N_3⟩

/-- The printed index maps, decided over the grid: a window that moves with the point has block index `(t, 0)`, a window
    that stays has block index `(0, 0)`. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- Point `t`'s block of window 0's array is its rows `5000·t …`. -/
theorem iblk_0 (c : Dev nD) (t : Fin cfg3.N) : iblk3 V c 0 t = rowsBlock (V c main_v51) (pt t) := by
  funext y
  obtain ⟨e0, e1, -⟩ := idx_facts t
  show V c main_v51 (((cfg3.win 0).blk t).view.emb y) = V c main_v51 _
  refine congrArg (V c main_v51) (funext fun a => Fin.ext ?_)
  match a with
  | ⟨0, _⟩ => show win3_0.index t (0 : Fin 2) * 5000 + 1 * (y 0).val = 5000 * t.val + (y 0).val; omega
  | ⟨1, _⟩ => show win3_0.index t (1 : Fin 2) * 128 + 1 * (y 1).val = (y 1).val; omega

/-- Window 1 stays: at every point its block is the whole of its array. -/
theorem iblk_1 (c : Dev nD) (t : Fin cfg3.N) : iblk3 V c 1 t = V c main_arg21 := by
  funext y
  obtain ⟨-, -, e0, e1, -⟩ := idx_facts t
  show V c main_arg21 (((cfg3.win 1).blk t).view.emb y) = V c main_arg21 y
  refine congrArg (V c main_arg21) (funext fun a => Fin.ext ?_)
  match a with
  | ⟨0, _⟩ => show win3_1.index t (0 : Fin 2) * 40 + 1 * (y 0).val = (y 0).val; omega
  | ⟨1, _⟩ => show win3_1.index t (1 : Fin 2) * 128 + 1 * (y 1).val = (y 1).val; omega

/-- Window 2 stays: at every point its block is the whole of its array. -/
theorem iblk_2 (c : Dev nD) (t : Fin cfg3.N) : iblk3 V c 2 t = V c main_v52 := by
  funext y
  obtain ⟨-, -, -, -, e0, e1, -⟩ := idx_facts t
  show V c main_v52 (((cfg3.win 2).blk t).view.emb y) = V c main_v52 y
  refine congrArg (V c main_v52) (funext fun a => Fin.ext ?_)
  match a with
  | ⟨0, _⟩ => show win3_2.index t (0 : Fin 2) * 1 + 1 * (y 0).val = (y 0).val; omega
  | ⟨1, _⟩ => show win3_2.index t (1 : Fin 2) * 40 + 1 * (y 1).val = (y 1).val; omega

/-- Block `t` of any contents of the result array is its rows `5000·t …`. -/
theorem read_out (G : Mat 100000 40) (t : Fin cfg3.N) :
    ((cfg3.win 3).blk t).view.read (Elt Ideal) G = rowsBlock G (pt t) := by
  funext y
  obtain ⟨-, -, -, -, -, -, e0, e1⟩ := idx_facts t
  show G (((cfg3.win 3).blk t).view.emb y) = G _
  refine congrArg G (funext fun a => Fin.ext ?_)
  match a with
  | ⟨0, _⟩ => show win3_3.index t (0 : Fin 2) * 5000 + 1 * (y 0).val = 5000 * t.val + (y 0).val; omega
  | ⟨1, _⟩ => show win3_3.index t (1 : Fin 2) * 40 + 1 * (y 1).val = (y 1).val; omega

/-- The stage's result as one function of its arrays as the stage finds them. -/
abbrev G (c : Dev nD) : Mat 100000 40 := logSoftmax (logits (V c main_v51) (V c main_arg21) (rowFn (V c main_v52)))

/-- What point `t` writes back is block `t` of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S5000x128) hz, View.ld_unit_zero (S := S40x128) hz, View.ld_unit_zero (S := S1x40) hz, View.ld_unit_zero (S := S5000x40) hz]
  rw [read_out, Payload.pay3_eq]
  simp only [iblk_0, iblk_1, iblk_2]
  exact rfl

/-- An index of the result array is in point `t`'s block iff each coordinate is in the block's range on its axis. -/
theorem mem_blk (t : Fin cfg3.N) (i : S100000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v53).slice (win3_3.rect t)).set ↔ _
  rw [View.set_slice_whole, Rect.mem_set_unit]
  exact Iff.rfl

/-- Every index of the result array lies in some point's block: row `r` in block `r / 5000`. -/
theorem cover (i : S100000x40.Idx) : ∃ t : Fin cfg3.N, (cfg3.win 3).flush t = true ∧ i ∈ ((cfg3.win 3).blk t).view.set := by
  have hi0 : (i 0).val < 100000 := (i 0).isLt
  have hi1 : (i 1).val < 40 := (i 1).isLt
  have ht : (i 0).val / 5000 < cfg3.N := lt_of_lt_of_eq (by omega : (i 0).val / 5000 < 20) N_3.symm
  refine ⟨⟨(i 0).val / 5000, ht⟩, flush3_3 _, ?_⟩
  rw [mem_blk]
  obtain ⟨-, -, -, -, -, -, e0, e1⟩ := idx_facts ⟨(i 0).val / 5000, ht⟩
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ (1 : Fin 2) * 40 ≤ (i 1).val ∧ (i 1).val < win3_3.index ⟨(i 0).val / 5000, ht⟩ (1 : Fin 2) * 40 + 40
    rw [e1]; omega

/-- The result array after the stage is `G` of the arrays as the stage finds them. -/
theorem final (c : Dev nD) : (dat3 V c).arrAt 3 cfg3.N = G V c :=
  (dat3 V c).arrAt_eq_of_cover 3 _ (fun t _ => flushed_eq V c t) cover

end Cert.KernelIdeal.Stage3

end
-- ==== Proof.KernelHost.lean ====
/-
  What the buffers hold after each stretch of host operations between the tiled stages.

  Between two tiled stages @main runs, on the host, the sparse aggregation of the previous stage's result — every edge
  `e` adds `vals e ·` (row `src e` of the features) into row `dst e` of a zero matrix: a gather of rows at the (wrapped)
  source indices, a product with the edge weights spread over the 128 features, and a scatter-add at the target
  indices — and recasts the next stage's per-feature parameter vectors as one-row matrices. Each lemma below reads one
  buffer after a stretch, from ANY contents `W` the stretch starts at: the aggregated matrix is `agg` of the incoming
  arrays, a recast parameter read along its one row is the vector, and an argument the stretch does not write is kept.
-/
import proofs.«144697_j54065048323073_1_alg».proof.Proof.KernelIdealFrame
import proofs.«144697_j54065048323073_1_alg».proof.Proof.Spec
import Idealize.ShloMosaic.Lib.StableHlo.Run
import Idealize.ShloMosaic.Lib.ValueLayout

noncomputable section

namespace Cert.KernelIdeal.HostOps

open Cert.KernelIdeal Cert.KernelIdeal.Gen Cert.KernelIdeal.GenP Cert.GraphConv
open Idealize.ShloMosaic Idealize.ShloMosaic.TcCoe Idealize.ShloMosaic.ValueIdx Idealize.SL.Sem Idealize.ShloMosaic.StableHlo

/-- The sparse aggregation of the rows of `h` along the edges `(src, dst, vals)`, as the host operations spell it. -/
def agg (vals : (⟨S1600000, .f32⟩ : BufTy).Contents (Elt Ideal)) (src dst : (⟨S1600000, .i32⟩ : BufTy).Contents (Elt Ideal))
    (h : (⟨S100000x128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (F := Ideal)
      (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 h
        (broadcastInDim S1600000x1 ![0] bcast_S1600000_S1600000x1_0
          (select
            (cmpi CmpIPredicate.slt src (broadcastInDim S1600000 ![] bcast_S_S1600000 (constantI S_ 32 0#32)))
            (addi src (broadcastInDim S1600000 ![] bcast_S_S1600000 (constantI S_ 32 100000#32)))
            src))))

/-- A 128-vector recast as a one-row matrix, read along the row, is the vector. -/
theorem rowFn_cast128 (v : S128.Idx → EReal) :
    rowFn (fun i => shapeCast S1x128 v shapeCasts_S128_S1x128 i) = vecFn v :=
  funext fun q => shapeCast_a_1a_apply v shapeCasts_S128_S1x128 (0 : Fin 1) q

/-- A 40-vector recast as a one-row matrix, read along the row, is the vector. -/
theorem rowFn_cast40 (v : S40.Idx → EReal) :
    rowFn (fun i => shapeCast S1x40 v shapeCasts_S40_S1x40 i) = vecFn v :=
  funext fun q => shapeCast_a_1a_apply v shapeCasts_S40_S1x40 (0 : Fin 1) q

variable (W : Valuation τ sig (Elt Ideal))

/-! ## The stretch before tiled stage 1 -/

theorem s1_agg : after (hostOps1 (F := Ideal)) W (Proc.devRef .tc main_v13)
    = agg (W (Proc.devRef .tc main_arg5)) (W (Proc.devRef .tc main_arg3)) (W (Proc.devRef .tc main_arg4)) (W (Proc.devRef .tc main_v0)) := by
  after_results_simp <;> rfl

theorem s1_main_v14 : rowFn (after (hostOps1 (F := Ideal)) W (Proc.devRef .tc main_v14)) = vecFn (W (Proc.devRef .tc main_arg10)) := by
  have e : after (hostOps1 (F := Ideal)) W (Proc.devRef .tc main_v14) = (fun i => shapeCast S1x128 (W (Proc.devRef .tc main_arg10)) shapeCasts_S128_S1x128 i) := by
    after_results_simp <;> rfl
  rw [e]; exact rowFn_cast128 _

theorem s1_main_v15 : rowFn (after (hostOps1 (F := Ideal)) W (Proc.devRef .tc main_v15)) = vecFn (W (Proc.devRef .tc main_arg11)) := by
  have e : after (hostOps1 (F := Ideal)) W (Proc.devRef .tc main_v15) = (fun i => shapeCast S1x128 (W (Proc.devRef .tc main_arg11)) shapeCasts_S128_S1x128 i) := by
    after_results_simp <;> rfl
  rw [e]; exact rowFn_cast128 _

theorem s1_main_v16 : rowFn (after (hostOps1 (F := Ideal)) W (Proc.devRef .tc main_v16)) = vecFn (W (Proc.devRef .tc main_arg12)) := by
  have e : after (hostOps1 (F := Ideal)) W (Proc.devRef .tc main_v16) = (fun i => shapeCast S1x128 (W (Proc.devRef .tc main_arg12)) shapeCasts_S128_S1x128 i) := by
    after_results_simp <;> rfl
  rw [e]; exact rowFn_cast128 _

theorem s1_main_v17 : rowFn (after (hostOps1 (F := Ideal)) W (Proc.devRef .tc main_v17)) = vecFn (W (Proc.devRef .tc main_arg13)) := by
  have e : after (hostOps1 (F := Ideal)) W (Proc.devRef .tc main_v17) = (fun i => shapeCast S1x128 (W (Proc.devRef .tc main_arg13)) shapeCasts_S128_S1x128 i) := by
    after_results_simp <;> rfl
  rw [e]; exact rowFn_cast128 _

theorem s1_main_v18 : rowFn (after (hostOps1 (F := Ideal)) W (Proc.devRef .tc main_v18)) = vecFn (W (Proc.devRef .tc main_arg14)) := by
  have e : after (hostOps1 (F := Ideal)) W (Proc.devRef .tc main_v18) = (fun i => shapeCast S1x128 (W (Proc.devRef .tc main_arg14)) shapeCasts_S128_S1x128 i) := by
    after_results_simp <;> rfl
  rw [e]; exact rowFn_cast128 _

theorem s1_arg2 : after (hostOps1 (F := Ideal)) W (Proc.devRef .tc main_arg2) = W (Proc.devRef .tc main_arg2) := by
  after_results_simp <;> rfl

theorem s1_arg9 : after (hostOps1 (F := Ideal)) W (Proc.devRef .tc main_arg9) = W (Proc.devRef .tc main_arg9) := by
  after_results_simp <;> rfl

theorem s1_arg6 : after (hostOps1 (F := Ideal)) W (Proc.devRef .tc main_arg6) = W (Proc.devRef .tc main_arg6) := by
  after_results_simp <;> rfl

theorem s1_arg7 : after (hostOps1 (F := Ideal)) W (Proc.devRef .tc main_arg7) = W (Proc.devRef .tc main_arg7) := by
  after_results_simp <;> rfl

theorem s1_arg8 : after (hostOps1 (F := Ideal)) W (Proc.devRef .tc main_arg8) = W (Proc.devRef .tc main_arg8) := by
  after_results_simp <;> rfl

theorem s1_arg15 : after (hostOps1 (F := Ideal)) W (Proc.devRef .tc main_arg15) = W (Proc.devRef .tc main_arg15) := by
  after_results_simp <;> rfl

theorem s1_arg16 : after (hostOps1 (F := Ideal)) W (Proc.devRef .tc main_arg16) = W (Proc.devRef .tc main_arg16) := by
  after_results_simp <;> rfl

theorem s1_arg17 : after (hostOps1 (F := Ideal)) W (Proc.devRef .tc main_arg17) = W (Proc.devRef .tc main_arg17) := by
  after_results_simp <;> rfl

theorem s1_arg18 : after (hostOps1 (F := Ideal)) W (Proc.devRef .tc main_arg18) = W (Proc.devRef .tc main_arg18) := by
  after_results_simp <;> rfl

theorem s1_arg19 : after (hostOps1 (F := Ideal)) W (Proc.devRef .tc main_arg19) = W (Proc.devRef .tc main_arg19) := by
  after_results_simp <;> rfl

theorem s1_arg20 : after (hostOps1 (F := Ideal)) W (Proc.devRef .tc main_arg20) = W (Proc.devRef .tc main_arg20) := by
  after_results_simp <;> rfl

theorem s1_arg21 : after (hostOps1 (F := Ideal)) W (Proc.devRef .tc main_arg21) = W (Proc.devRef .tc main_arg21) := by
  after_results_simp <;> rfl

theorem s1_arg22 : after (hostOps1 (F := Ideal)) W (Proc.devRef .tc main_arg22) = W (Proc.devRef .tc main_arg22) := by
  after_results_simp <;> rfl

/-! ## The stretch before tiled stage 2 -/

theorem s2_agg : after (hostOps2 (F := Ideal)) W (Proc.devRef .tc main_v32)
    = agg (W (Proc.devRef .tc main_arg8)) (W (Proc.devRef .tc main_arg6)) (W (Proc.devRef .tc main_arg7)) (W (Proc.devRef .tc main_v19)) := by
  after_results_simp <;> rfl

theorem s2_main_v33 : rowFn (after (hostOps2 (F := Ideal)) W (Proc.devRef .tc main_v33)) = vecFn (W (Proc.devRef .tc main_arg16)) := by
  have e : after (hostOps2 (F := Ideal)) W (Proc.devRef .tc main_v33) = (fun i => shapeCast S1x128 (W (Proc.devRef .tc main_arg16)) shapeCasts_S128_S1x128 i) := by
    after_results_simp <;> rfl
  rw [e]; exact rowFn_cast128 _

theorem s2_main_v34 : rowFn (after (hostOps2 (F := Ideal)) W (Proc.devRef .tc main_v34)) = vecFn (W (Proc.devRef .tc main_arg17)) := by
  have e : after (hostOps2 (F := Ideal)) W (Proc.devRef .tc main_v34) = (fun i => shapeCast S1x128 (W (Proc.devRef .tc main_arg17)) shapeCasts_S128_S1x128 i) := by
    after_results_simp <;> rfl
  rw [e]; exact rowFn_cast128 _

theorem s2_main_v35 : rowFn (after (hostOps2 (F := Ideal)) W (Proc.devRef .tc main_v35)) = vecFn (W (Proc.devRef .tc main_arg18)) := by
  have e : after (hostOps2 (F := Ideal)) W (Proc.devRef .tc main_v35) = (fun i => shapeCast S1x128 (W (Proc.devRef .tc main_arg18)) shapeCasts_S128_S1x128 i) := by
    after_results_simp <;> rfl
  rw [e]; exact rowFn_cast128 _

theorem s2_main_v36 : rowFn (after (hostOps2 (F := Ideal)) W (Proc.devRef .tc main_v36)) = vecFn (W (Proc.devRef .tc main_arg19)) := by
  have e : after (hostOps2 (F := Ideal)) W (Proc.devRef .tc main_v36) = (fun i => shapeCast S1x128 (W (Proc.devRef .tc main_arg19)) shapeCasts_S128_S1x128 i) := by
    after_results_simp <;> rfl
  rw [e]; exact rowFn_cast128 _

theorem s2_main_v37 : rowFn (after (hostOps2 (F := Ideal)) W (Proc.devRef .tc main_v37)) = vecFn (W (Proc.devRef .tc main_arg20)) := by
  have e : after (hostOps2 (F := Ideal)) W (Proc.devRef .tc main_v37) = (fun i => shapeCast S1x128 (W (Proc.devRef .tc main_arg20)) shapeCasts_S128_S1x128 i) := by
    after_results_simp <;> rfl
  rw [e]; exact rowFn_cast128 _

theorem s2_arg15 : after (hostOps2 (F := Ideal)) W (Proc.devRef .tc main_arg15) = W (Proc.devRef .tc main_arg15) := by
  after_results_simp <;> rfl

theorem s2_arg6 : after (hostOps2 (F := Ideal)) W (Proc.devRef .tc main_arg6) = W (Proc.devRef .tc main_arg6) := by
  after_results_simp <;> rfl

theorem s2_arg7 : after (hostOps2 (F := Ideal)) W (Proc.devRef .tc main_arg7) = W (Proc.devRef .tc main_arg7) := by
  after_results_simp <;> rfl

theorem s2_arg8 : after (hostOps2 (F := Ideal)) W (Proc.devRef .tc main_arg8) = W (Proc.devRef .tc main_arg8) := by
  after_results_simp <;> rfl

theorem s2_arg21 : after (hostOps2 (F := Ideal)) W (Proc.devRef .tc main_arg21) = W (Proc.devRef .tc main_arg21) := by
  after_results_simp <;> rfl

theorem s2_arg22 : after (hostOps2 (F := Ideal)) W (Proc.devRef .tc main_arg22) = W (Proc.devRef .tc main_arg22) := by
  after_results_simp <;> rfl

/-! ## The stretch before tiled stage 3 -/

theorem s3_agg : after (hostOps3 (F := Ideal)) W (Proc.devRef .tc main_v51)
    = agg (W (Proc.devRef .tc main_arg8)) (W (Proc.devRef .tc main_arg6)) (W (Proc.devRef .tc main_arg7)) (W (Proc.devRef .tc main_v38)) := by
  after_results_simp <;> rfl

theorem s3_main_v52 : rowFn (after (hostOps3 (F := Ideal)) W (Proc.devRef .tc main_v52)) = vecFn (W (Proc.devRef .tc main_arg22)) := by
  have e : after (hostOps3 (F := Ideal)) W (Proc.devRef .tc main_v52) = (fun i => shapeCast S1x40 (W (Proc.devRef .tc main_arg22)) shapeCasts_S40_S1x40 i) := by
    after_results_simp <;> rfl
  rw [e]; exact rowFn_cast40 _

theorem s3_arg21 : after (hostOps3 (F := Ideal)) W (Proc.devRef .tc main_arg21) = W (Proc.devRef .tc main_arg21) := by
  after_results_simp <;> rfl

end Cert.KernelIdeal.HostOps

end
-- ==== Proof.Net.lean ====
/-
  The whole network as one function of its arguments.

  Three graph-convolution layers. With `aggZ` and `agg` the two sparse aggregations along the edges (the first layer's
  graph and the other layers' graph) taken as given maps of feature matrices, the result is

    logSoftmax (logits (agg h₁) W₂ b₂),   h₁ = layer (agg h₀) W₁ …,   h₀ = layer (prescale (aggZ (prescale x M)) AM) W₀ …

  Both programs compute this function; they differ in how the dense stages are carried out (tiled on the accelerator's
  matrix and vector units against whole-array host operations), not in what is computed.
-/
import proofs.«144697_j54065048323073_1_alg».proof.Proof.Spec

noncomputable section

namespace Cert.GraphConv

/-- The first hidden layer. -/
def hidden0 (aggZ : Mat 100000 128 → Mat 100000 128) (x : Mat 100000 128) (M AM : Mat 100000 1) (W0 : Mat 128 128)
    (b0 g0 be0 rm0 rv0 : Fin 128 → EReal) : Mat 100000 128 :=
  layer (prescale (aggZ (prescale x M)) AM) W0 b0 g0 be0 rm0 rv0

/-- The second hidden layer, from the first one's features. -/
def hidden1 (agg : Mat 100000 128 → Mat 100000 128) (h0 : Mat 100000 128) (W1 : Mat 128 128)
    (b1 g1 be1 rm1 rv1 : Fin 128 → EReal) : Mat 100000 128 :=
  layer (agg h0) W1 b1 g1 be1 rm1 rv1

/-- The output layer and the logarithm of the softmax, from the second hidden layer's features. -/
def output (agg : Mat 100000 128 → Mat 100000 128) (h1 : Mat 100000 128) (W2 : Mat 40 128) (b2 : Fin 40 → EReal) :
    Mat 100000 40 :=
  logSoftmax (logits (agg h1) W2 b2)

/-- The network. -/
def net (aggZ agg : Mat 100000 128 → Mat 100000 128) (x : Mat 100000 128) (M AM : Mat 100000 1)
    (W0 : Mat 128 128) (b0 g0 be0 rm0 rv0 : Fin 128 → EReal)
    (W1 : Mat 128 128) (b1 g1 be1 rm1 rv1 : Fin 128 → EReal)
    (W2 : Mat 40 128) (b2 : Fin 40 → EReal) : Mat 100000 40 :=
  output agg (hidden1 agg (hidden0 aggZ x M AM W0 b0 g0 be0 rm0 rv0) W1 b1 g1 be1 rm1 rv1) W2 b2

end Cert.GraphConv

end
-- ==== Proof.KernelValue.lean ====
/-
  The idealized kernel's result as one function of its arguments.

  The run's fold through @main's segments is opened from the first segment on. After the first tiled stage its result
  array holds `prescale x M` of the launch contents and every other buffer is as launched. A stretch of host operations
  then leaves the aggregation of that array and the next stage's recast parameters, and keeps the arguments; the next
  tiled stage leaves `layer …` of those. After three such rounds the last stage's result array — the buffer @main returns —
  holds `net` of the arguments' launch contents.
-/
import proofs.«144697_j54065048323073_1_alg».proof.Proof.KernelRun
import proofs.«144697_j54065048323073_1_alg».proof.Proof.Stage0
import proofs.«144697_j54065048323073_1_alg».proof.Proof.Stage1
import proofs.«144697_j54065048323073_1_alg».proof.Proof.Stage2
import proofs.«144697_j54065048323073_1_alg».proof.Proof.Stage3
import proofs.«144697_j54065048323073_1_alg».proof.Proof.KernelHost
import proofs.«144697_j54065048323073_1_alg».proof.Proof.Net

noncomputable section

namespace Cert.KernelIdeal.Whole

open Cert.KernelIdeal Cert.KernelIdeal.Gen Cert.KernelIdeal.GenP Cert.KernelIdeal.HostOps Cert.GraphConv
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- An argument array at launch. -/
abbrev arg (b : Ref sig .tc) : Buf (Elt Ideal) ((c : Thread nD τ).loc b) := m ((c : Thread nD τ).loc b)

/-! ## After the first tiled stage -/

theorem W1_out : W1 m ρ c (Proc.devRef .tc main_v0) = prescale (arg m c main_arg0) (arg m c main_arg1) :=
  (W1_arr m ρ c 2).trans (Stage0.final (V0 m ρ) c)

theorem W1_arg2 : W1 m ρ c (Proc.devRef .tc main_arg2) = (arg m c main_arg2) := W1_of_ne m ρ c main_arg2 (by decide)
theorem W1_arg3 : W1 m ρ c (Proc.devRef .tc main_arg3) = (arg m c main_arg3) := W1_of_ne m ρ c main_arg3 (by decide)
theorem W1_arg4 : W1 m ρ c (Proc.devRef .tc main_arg4) = (arg m c main_arg4) := W1_of_ne m ρ c main_arg4 (by decide)
theorem W1_arg5 : W1 m ρ c (Proc.devRef .tc main_arg5) = (arg m c main_arg5) := W1_of_ne m ρ c main_arg5 (by decide)
theorem W1_arg6 : W1 m ρ c (Proc.devRef .tc main_arg6) = (arg m c main_arg6) := W1_of_ne m ρ c main_arg6 (by decide)
theorem W1_arg7 : W1 m ρ c (Proc.devRef .tc main_arg7) = (arg m c main_arg7) := W1_of_ne m ρ c main_arg7 (by decide)
theorem W1_arg8 : W1 m ρ c (Proc.devRef .tc main_arg8) = (arg m c main_arg8) := W1_of_ne m ρ c main_arg8 (by decide)
theorem W1_arg9 : W1 m ρ c (Proc.devRef .tc main_arg9) = (arg m c main_arg9) := W1_of_ne m ρ c main_arg9 (by decide)
theorem W1_arg10 : W1 m ρ c (Proc.devRef .tc main_arg10) = (arg m c main_arg10) := W1_of_ne m ρ c main_arg10 (by decide)
theorem W1_arg11 : W1 m ρ c (Proc.devRef .tc main_arg11) = (arg m c main_arg11) := W1_of_ne m ρ c main_arg11 (by decide)
theorem W1_arg12 : W1 m ρ c (Proc.devRef .tc main_arg12) = (arg m c main_arg12) := W1_of_ne m ρ c main_arg12 (by decide)
theorem W1_arg13 : W1 m ρ c (Proc.devRef .tc main_arg13) = (arg m c main_arg13) := W1_of_ne m ρ c main_arg13 (by decide)
theorem W1_arg14 : W1 m ρ c (Proc.devRef .tc main_arg14) = (arg m c main_arg14) := W1_of_ne m ρ c main_arg14 (by decide)
theorem W1_arg15 : W1 m ρ c (Proc.devRef .tc main_arg15) = (arg m c main_arg15) := W1_of_ne m ρ c main_arg15 (by decide)
theorem W1_arg16 : W1 m ρ c (Proc.devRef .tc main_arg16) = (arg m c main_arg16) := W1_of_ne m ρ c main_arg16 (by decide)
theorem W1_arg17 : W1 m ρ c (Proc.devRef .tc main_arg17) = (arg m c main_arg17) := W1_of_ne m ρ c main_arg17 (by decide)
theorem W1_arg18 : W1 m ρ c (Proc.devRef .tc main_arg18) = (arg m c main_arg18) := W1_of_ne m ρ c main_arg18 (by decide)
theorem W1_arg19 : W1 m ρ c (Proc.devRef .tc main_arg19) = (arg m c main_arg19) := W1_of_ne m ρ c main_arg19 (by decide)
theorem W1_arg20 : W1 m ρ c (Proc.devRef .tc main_arg20) = (arg m c main_arg20) := W1_of_ne m ρ c main_arg20 (by decide)
theorem W1_arg21 : W1 m ρ c (Proc.devRef .tc main_arg21) = (arg m c main_arg21) := W1_of_ne m ρ c main_arg21 (by decide)
theorem W1_arg22 : W1 m ρ c (Proc.devRef .tc main_arg22) = (arg m c main_arg22) := W1_of_ne m ρ c main_arg22 (by decide)

/-! ## After the second tiled stage -/

/-- The first hidden layer's features of the launch contents. -/
abbrev h0 : Mat 100000 128 :=
  hidden0 (agg (arg m c main_arg5) (arg m c main_arg3) (arg m c main_arg4)) (arg m c main_arg0) (arg m c main_arg1) (arg m c main_arg2) (arg m c main_arg9) (vecFn (arg m c main_arg10)) (vecFn (arg m c main_arg11)) (vecFn (arg m c main_arg12)) (vecFn (arg m c main_arg13)) (vecFn (arg m c main_arg14))

theorem W3_out : W3 m ρ c (Proc.devRef .tc main_v19) = h0 m c := by
  refine ((W3_arr m ρ c 8).trans (Stage1.final (V2 m ρ) c)).trans ?_
  unfold Stage1.G
  show layer (prescale (after (hostOps1 (F := Ideal)) (W1 m ρ c) (Proc.devRef .tc main_v13)) (after (hostOps1 (F := Ideal)) (W1 m ρ c) (Proc.devRef .tc main_arg2)))
      (after (hostOps1 (F := Ideal)) (W1 m ρ c) (Proc.devRef .tc main_arg9))
      (rowFn (after (hostOps1 (F := Ideal)) (W1 m ρ c) (Proc.devRef .tc main_v14))) (rowFn (after (hostOps1 (F := Ideal)) (W1 m ρ c) (Proc.devRef .tc main_v15)))
      (rowFn (after (hostOps1 (F := Ideal)) (W1 m ρ c) (Proc.devRef .tc main_v16))) (rowFn (after (hostOps1 (F := Ideal)) (W1 m ρ c) (Proc.devRef .tc main_v17)))
      (rowFn (after (hostOps1 (F := Ideal)) (W1 m ρ c) (Proc.devRef .tc main_v18))) = _
  rw [s1_agg, s1_arg2, s1_arg9, s1_main_v14, s1_main_v15, s1_main_v16, s1_main_v17, s1_main_v18,
    W1_out, W1_arg2, W1_arg3, W1_arg4, W1_arg5, W1_arg9, W1_arg10, W1_arg11, W1_arg12, W1_arg13, W1_arg14]
  rfl

theorem W3_arg6 : W3 m ρ c (Proc.devRef .tc main_arg6) = (arg m c main_arg6) :=
  (W3_of_ne m ρ c main_arg6 (by decide)).trans ((s1_arg6 (W1 m ρ c)).trans (W1_arg6 m ρ c))
theorem W3_arg7 : W3 m ρ c (Proc.devRef .tc main_arg7) = (arg m c main_arg7) :=
  (W3_of_ne m ρ c main_arg7 (by decide)).trans ((s1_arg7 (W1 m ρ c)).trans (W1_arg7 m ρ c))
theorem W3_arg8 : W3 m ρ c (Proc.devRef .tc main_arg8) = (arg m c main_arg8) :=
  (W3_of_ne m ρ c main_arg8 (by decide)).trans ((s1_arg8 (W1 m ρ c)).trans (W1_arg8 m ρ c))
theorem W3_arg15 : W3 m ρ c (Proc.devRef .tc main_arg15) = (arg m c main_arg15) :=
  (W3_of_ne m ρ c main_arg15 (by decide)).trans ((s1_arg15 (W1 m ρ c)).trans (W1_arg15 m ρ c))
theorem W3_arg16 : W3 m ρ c (Proc.devRef .tc main_arg16) = (arg m c main_arg16) :=
  (W3_of_ne m ρ c main_arg16 (by decide)).trans ((s1_arg16 (W1 m ρ c)).trans (W1_arg16 m ρ c))
theorem W3_arg17 : W3 m ρ c (Proc.devRef .tc main_arg17) = (arg m c main_arg17) :=
  (W3_of_ne m ρ c main_arg17 (by decide)).trans ((s1_arg17 (W1 m ρ c)).trans (W1_arg17 m ρ c))
theorem W3_arg18 : W3 m ρ c (Proc.devRef .tc main_arg18) = (arg m c main_arg18) :=
  (W3_of_ne m ρ c main_arg18 (by decide)).trans ((s1_arg18 (W1 m ρ c)).trans (W1_arg18 m ρ c))
theorem W3_arg19 : W3 m ρ c (Proc.devRef .tc main_arg19) = (arg m c main_arg19) :=
  (W3_of_ne m ρ c main_arg19 (by decide)).trans ((s1_arg19 (W1 m ρ c)).trans (W1_arg19 m ρ c))
theorem W3_arg20 : W3 m ρ c (Proc.devRef .tc main_arg20) = (arg m c main_arg20) :=
  (W3_of_ne m ρ c main_arg20 (by decide)).trans ((s1_arg20 (W1 m ρ c)).trans (W1_arg20 m ρ c))
theorem W3_arg21 : W3 m ρ c (Proc.devRef .tc main_arg21) = (arg m c main_arg21) :=
  (W3_of_ne m ρ c main_arg21 (by decide)).trans ((s1_arg21 (W1 m ρ c)).trans (W1_arg21 m ρ c))
theorem W3_arg22 : W3 m ρ c (Proc.devRef .tc main_arg22) = (arg m c main_arg22) :=
  (W3_of_ne m ρ c main_arg22 (by decide)).trans ((s1_arg22 (W1 m ρ c)).trans (W1_arg22 m ρ c))

/-! ## After the third tiled stage -/

/-- The second hidden layer's features of the launch contents. -/
abbrev h1 : Mat 100000 128 :=
  hidden1 (agg (arg m c main_arg8) (arg m c main_arg6) (arg m c main_arg7)) (h0 m c) (arg m c main_arg15) (vecFn (arg m c main_arg16)) (vecFn (arg m c main_arg17)) (vecFn (arg m c main_arg18)) (vecFn (arg m c main_arg19)) (vecFn (arg m c main_arg20))

theorem W5_out : W5 m ρ c (Proc.devRef .tc main_v38) = h1 m c := by
  refine ((W5_arr m ρ c 7).trans (Stage2.final (V4 m ρ) c)).trans ?_
  unfold Stage2.G
  show layer (after (hostOps2 (F := Ideal)) (W3 m ρ c) (Proc.devRef .tc main_v32)) (after (hostOps2 (F := Ideal)) (W3 m ρ c) (Proc.devRef .tc main_arg15))
      (rowFn (after (hostOps2 (F := Ideal)) (W3 m ρ c) (Proc.devRef .tc main_v33))) (rowFn (after (hostOps2 (F := Ideal)) (W3 m ρ c) (Proc.devRef .tc main_v34)))
      (rowFn (after (hostOps2 (F := Ideal)) (W3 m ρ c) (Proc.devRef .tc main_v35))) (rowFn (after (hostOps2 (F := Ideal)) (W3 m ρ c) (Proc.devRef .tc main_v36)))
      (rowFn (after (hostOps2 (F := Ideal)) (W3 m ρ c) (Proc.devRef .tc main_v37))) = _
  rw [s2_agg, s2_arg15, s2_main_v33, s2_main_v34, s2_main_v35, s2_main_v36, s2_main_v37,
    W3_out, W3_arg6, W3_arg7, W3_arg8, W3_arg15, W3_arg16, W3_arg17, W3_arg18, W3_arg19, W3_arg20]
  rfl

theorem W5_arg6 : W5 m ρ c (Proc.devRef .tc main_arg6) = (arg m c main_arg6) :=
  (W5_of_ne m ρ c main_arg6 (by decide)).trans ((s2_arg6 (W3 m ρ c)).trans (W3_arg6 m ρ c))
theorem W5_arg7 : W5 m ρ c (Proc.devRef .tc main_arg7) = (arg m c main_arg7) :=
  (W5_of_ne m ρ c main_arg7 (by decide)).trans ((s2_arg7 (W3 m ρ c)).trans (W3_arg7 m ρ c))
theorem W5_arg8 : W5 m ρ c (Proc.devRef .tc main_arg8) = (arg m c main_arg8) :=
  (W5_of_ne m ρ c main_arg8 (by decide)).trans ((s2_arg8 (W3 m ρ c)).trans (W3_arg8 m ρ c))
theorem W5_arg21 : W5 m ρ c (Proc.devRef .tc main_arg21) = (arg m c main_arg21) :=
  (W5_of_ne m ρ c main_arg21 (by decide)).trans ((s2_arg21 (W3 m ρ c)).trans (W3_arg21 m ρ c))
theorem W5_arg22 : W5 m ρ c (Proc.devRef .tc main_arg22) = (arg m c main_arg22) :=
  (W5_of_ne m ρ c main_arg22 (by decide)).trans ((s2_arg22 (W3 m ρ c)).trans (W3_arg22 m ρ c))

/-! ## After the last tiled stage -/

/-- The network of the launch contents. -/
abbrev out : Mat 100000 40 :=
  net (agg (arg m c main_arg5) (arg m c main_arg3) (arg m c main_arg4)) (agg (arg m c main_arg8) (arg m c main_arg6) (arg m c main_arg7)) (arg m c main_arg0) (arg m c main_arg1) (arg m c main_arg2)
    (arg m c main_arg9) (vecFn (arg m c main_arg10)) (vecFn (arg m c main_arg11)) (vecFn (arg m c main_arg12)) (vecFn (arg m c main_arg13)) (vecFn (arg m c main_arg14))
    (arg m c main_arg15) (vecFn (arg m c main_arg16)) (vecFn (arg m c main_arg17)) (vecFn (arg m c main_arg18)) (vecFn (arg m c main_arg19)) (vecFn (arg m c main_arg20))
    (arg m c main_arg21) (vecFn (arg m c main_arg22))

theorem W7_out : W7 m ρ c (Proc.devRef .tc main_v53) = out m c := by
  refine ((W7_arr m ρ c 3).trans (Stage3.final (V6 m ρ) c)).trans ?_
  unfold Stage3.G
  show logSoftmax (logits (after (hostOps3 (F := Ideal)) (W5 m ρ c) (Proc.devRef .tc main_v51)) (after (hostOps3 (F := Ideal)) (W5 m ρ c) (Proc.devRef .tc main_arg21))
      (rowFn (after (hostOps3 (F := Ideal)) (W5 m ρ c) (Proc.devRef .tc main_v52)))) = _
  rw [s3_agg, s3_arg21, s3_main_v52, W5_out, W5_arg6, W5_arg7, W5_arg8, W5_arg21, W5_arg22]
  rfl

/-! ## The run, read -/

/-- Every weakly fair execution of the idealized kernel terminates, nothing faulting, with the returned array at the
    network of the arguments' launch contents and the arguments unchanged. -/
theorem run : θ_run defs (onTc (τ := τ) (main (F := Ideal))) ⟨m, fun _ => 0, ρ⟩ (fun r => ∀ c : Dev nD,
      r.2.mem ((c.tc : Thread nD τ).loc main_v53) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_v53 (by decide))).trans (W7_out m ρ c),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c),
      (h c _ (mem_uc main_arg13 (by decide))).trans (W7_main_arg13 m ρ c),
      (h c _ (mem_uc main_arg14 (by decide))).trans (W7_main_arg14 m ρ c),
      (h c _ (mem_uc main_arg15 (by decide))).trans (W7_main_arg15 m ρ c),
      (h c _ (mem_uc main_arg16 (by decide))).trans (W7_main_arg16 m ρ c),
      (h c _ (mem_uc main_arg17 (by decide))).trans (W7_main_arg17 m ρ c),
      (h c _ (mem_uc main_arg18 (by decide))).trans (W7_main_arg18 m ρ c),
      (h c _ (mem_uc main_arg19 (by decide))).trans (W7_main_arg19 m ρ c),
      (h c _ (mem_uc main_arg20 (by decide))).trans (W7_main_arg20 m ρ c),
      (h c _ (mem_uc main_arg21 (by decide))).trans (W7_main_arg21 m ρ c),
      (h c _ (mem_uc main_arg22 (by decide))).trans (W7_main_arg22 m ρ c)⟩)
    (RunAll.run_all m ρ)

end Cert.KernelIdeal.Whole

end
-- ==== Proof.LibHostRowMax.lean ====
/-
  The host's reduction of a matrix by maximum along its second axis, read at a row, over the extended reals.

  For an `[a, b]` matrix `x` and an initial value held in an array `init` of any non-empty shape, the host's
  one-operand reduce with a maximum body along axis 1 is, at row `i`, the fold of `max` from the initial value's
  first entry over `x (i, k)`, `k < b`. Arbitrary extents and any float format. (The library states this over the
  reduced shape's own index with the coordinate put back; here the index is spelt by its two coordinates.)
-/
import Idealize.ShloMosaic.PureOps.Ideal.Laws
import Idealize.ShloMosaic.PureOps.Reduce
import Idealize.ShloMosaic.Lib.ValueIdx

noncomputable section

namespace Idealize.ShloMosaic.HostRowMax

open Idealize.ShloMosaic Idealize.ShloMosaic.ValueIdx

variable {a b : ℕ} {φ : FTy}

/-- The host's row maxima: at row `i`, the fold of `max` over the row's entries from the initial value. -/
theorem hostRowMax_apply {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  refine congrArg (Finset.fold max (init (Shape.Idx.first hu)) · (Finset.univ : Finset (Fin b))) (funext fun k => ?_)
  exact congrArg x (funext fun c => Fin.ext (by match c with | ⟨0, _⟩ => rfl | ⟨1, _⟩ => rfl))

end Idealize.ShloMosaic.HostRowMax

end
-- ==== Proof.RefValue.lean ====
/-
  The idealized reference's result as one function of its arguments.

  The reference is one line of whole-array host operations. Read one operation at a time, and each entry at an index:

    * its first product is `M · x` entry by entry, which is `prescale x M` (the product of extended reals commutes);
    * each sparse aggregation is the same composite of a gather, a product and a scatter-add applied to the previous
      stage's features;
    * each hidden stage transposes the weight matrix and contracts the features' second axis against the transpose's
      first, which at `(r, q)` is `Σ_k X(r,k)·W(q,k)`, then adds the bias, subtracts the running mean, multiplies by the
      reciprocal square root of the variance plus ε, by the scale, adds the shift — each per-feature vector spread along
      the rows — and takes the maximum with zero: `layer`;
    * the last stage forms the scores the same way and applies the logarithm of the softmax along each row: the row
      maximum from −∞ (once more against −∞), subtracted; exponentials summed along the row from zero; the logarithm of
      the sum subtracted.

  Together: the reference's result is `net` of its arguments.
-/
import proofs.«144697_j54065048323073_1_alg».proof.Proof.ReferenceRead
import proofs.«144697_j54065048323073_1_alg».proof.Proof.Spec
import proofs.«144697_j54065048323073_1_alg».proof.Proof.Net
import proofs.«144697_j54065048323073_1_alg».proof.Proof.LibHostRowMax
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Cert.GraphConv
open Idealize.ShloMosaic Idealize.ShloMosaic.ValueIdx

variable (x0 : (⟨S100000x128, .f32⟩ : BufTy).Contents (Elt Ideal)) (x1 x2 : (⟨S100000x1, .f32⟩ : BufTy).Contents (Elt Ideal)) (x3 x4 : (⟨S1600000, .i32⟩ : BufTy).Contents (Elt Ideal)) (x5 : (⟨S1600000, .f32⟩ : BufTy).Contents (Elt Ideal))
  (x6 x7 : (⟨S1600000, .i32⟩ : BufTy).Contents (Elt Ideal)) (x8 : (⟨S1600000, .f32⟩ : BufTy).Contents (Elt Ideal)) (x9 : (⟨S128x128, .f32⟩ : BufTy).Contents (Elt Ideal)) (x10 x11 x12 x13 x14 : (⟨S128, .f32⟩ : BufTy).Contents (Elt Ideal))
  (x15 : (⟨S128x128, .f32⟩ : BufTy).Contents (Elt Ideal)) (x16 x17 x18 x19 x20 : (⟨S128, .f32⟩ : BufTy).Contents (Elt Ideal)) (x21 : (⟨S40x128, .f32⟩ : BufTy).Contents (Elt Ideal)) (x22 : (⟨S40, .f32⟩ : BufTy).Contents (Elt Ideal))

/-- Two indices of a vector are equal when their one coordinate is. -/
local macro "idx_eq1" : tactic => `(tactic| (funext a; match a with | ⟨0, _⟩ => rfl))
/-- Two indices of a matrix are equal when their two coordinates are. -/
local macro "idx_eq2" : tactic => `(tactic| (funext a; match a with | ⟨0, _⟩ => rfl | ⟨1, _⟩ => rfl))

/-- The sparse aggregation, in the reference's spelling. -/
def aggR (vals : (⟨S1600000, .f32⟩ : BufTy).Contents (Elt Ideal)) (src dst : (⟨S1600000, .i32⟩ : BufTy).Contents (Elt Ideal)) (h : (⟨S100000x128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (F := Ideal)
      (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 h
        (broadcastInDim S1600000x1 ![0] bcast_S1600000_S1600000x1_0
          (select
            (cmpi CmpIPredicate.slt src (broadcastInDim S1600000 ![] bcast_S_S1600000 (constantI S_ 32 0#32)))
            (addi src (broadcastInDim S1600000 ![] bcast_S_S1600000 (constantI S_ 32 100000#32)))
            src))))

/-! ## The first product and the three aggregations -/

theorem first_eq : val_main_v1 (F := Ideal) x0 x1 = prescale x0 x1 := by
  funext i
  obtain ⟨r, q, rfl⟩ : ∃ (r : Fin 100000) (q : Fin 128), i = ix2 r q := ⟨i 0, i 1, eq_ix2 i⟩
  rw [val_main_v1_apply, val_main_v0_apply]
  have e : idx_main_v0 (ix2 r q) = ix2 r (0 : Fin 1) := by idx_eq2
  rw [e]
  exact mul_comm _ _

theorem agg0_eq : val_main_v14 (F := Ideal) x0 x1 x3 x4 x5 = aggR x5 x3 x4 (val_main_v1 (F := Ideal) x0 x1) := rfl

theorem agg1_eq : val_main_v50 (F := Ideal) x0 x1 x2 x3 x4 x5 x6 x7 x8 x9 x10 x11 x12 x13 x14 = aggR x8 x6 x7 (val_main_v37 (F := Ideal) x0 x1 x2 x3 x4 x5 x9 x10 x11 x12 x13 x14) := rfl

theorem agg2_eq : val_main_v84 (F := Ideal) x0 x1 x2 x3 x4 x5 x6 x7 x8 x9 x10 x11 x12 x13 x14 x15 x16 x17 x18 x19 x20 = aggR x8 x6 x7 (val_main_v71 (F := Ideal) x0 x1 x2 x3 x4 x5 x6 x7 x8 x9 x10 x11 x12 x13 x14 x15 x16 x17 x18 x19 x20) := rfl

/-! ## The two hidden stages -/

theorem hidden0_eq : val_main_v37 (F := Ideal) x0 x1 x2 x3 x4 x5 x9 x10 x11 x12 x13 x14
    = layer (prescale (val_main_v14 (F := Ideal) x0 x1 x3 x4 x5) x2) x9 (vecFn x10) (vecFn x11) (vecFn x12) (vecFn x13) (vecFn x14) := by
  funext i
  obtain ⟨r, q, rfl⟩ : ∃ (r : Fin 100000) (q : Fin 128), i = ix2 r q := ⟨i 0, i 1, eq_ix2 i⟩
  rw [val_main_v37_apply, val_main_v36_apply, val_main_v33_apply, val_main_v30_apply, val_main_v24_apply, val_main_v21_apply]
  rw [val_main_v20_apply, val_main_v19_apply, val_main_v23_apply, val_main_v22_apply, val_main_v29_apply, val_main_v28_apply,
    val_main_v27_apply, val_main_v26_apply, val_main_v25_apply, val_main_cst_1_apply, val_main_v32_apply, val_main_v31_apply,
    val_main_v35_apply, val_main_v34_apply, val_main_call0_v0_apply, val_main_call0_cst_apply]
  rw [val_main_v18_apply]
  have e10 : idx_main_v19 (idx_main_v20 (ix2 r q)) = ix1 q := by idx_eq1
  have e13 : idx_main_v22 (idx_main_v23 (ix2 r q)) = ix1 q := by idx_eq1
  have e14 : idx_main_v28 (idx_main_v29 (ix2 r q)) = ix1 q := by idx_eq1
  have e11 : idx_main_v31 (idx_main_v32 (ix2 r q)) = ix1 q := by idx_eq1
  have e12 : idx_main_v34 (idx_main_v35 (ix2 r q)) = ix1 q := by idx_eq1
  have es : ∀ k : Fin 128, val_main_v16 (F := Ideal) x0 x1 x2 x3 x4 x5 (lidx_main_v18 (ix2 r q) k) * val_main_v17 (F := Ideal) x9 (ridx_main_v18 (ix2 r q) k)
      = (val_main_v14 (F := Ideal) x0 x1 x3 x4 x5 (ix2 r k) * x2 (ix2 r (0 : Fin 1))) * x9 (ix2 q k) := fun k => by
    have el : lidx_main_v18 (ix2 r q) k = ix2 r k := by idx_eq2
    rw [el, val_main_v16_apply, val_main_v15_apply, val_main_v17_apply]
    have e15 : idx_main_v15 (ix2 r k) = ix2 r (0 : Fin 1) := by idx_eq2
    have e17 : idx_main_v17 (ridx_main_v18 (ix2 r q) k) = ix2 q k := by idx_eq2
    rw [e15, e17]; rfl
  rw [e10, e13, e14, e11, e12, Finset.sum_congr rfl (fun k _ => es k),
    show (FloatOps.ofBits FTy.f32 0#32 : Ideal .f32) = 0 from Ideal.ofBits_zero_f32]
  rfl

theorem hidden1_eq : val_main_v71 (F := Ideal) x0 x1 x2 x3 x4 x5 x6 x7 x8 x9 x10 x11 x12 x13 x14 x15 x16 x17 x18 x19 x20
    = layer (val_main_v50 (F := Ideal) x0 x1 x2 x3 x4 x5 x6 x7 x8 x9 x10 x11 x12 x13 x14) x15 (vecFn x16) (vecFn x17) (vecFn x18) (vecFn x19) (vecFn x20) := by
  funext i
  obtain ⟨r, q, rfl⟩ : ∃ (r : Fin 100000) (q : Fin 128), i = ix2 r q := ⟨i 0, i 1, eq_ix2 i⟩
  rw [val_main_v71_apply, val_main_v70_apply, val_main_v67_apply, val_main_v64_apply, val_main_v58_apply, val_main_v55_apply]
  rw [val_main_v54_apply, val_main_v53_apply, val_main_v57_apply, val_main_v56_apply, val_main_v63_apply, val_main_v62_apply,
    val_main_v61_apply, val_main_v60_apply, val_main_v59_apply, val_main_cst_5_apply, val_main_v66_apply, val_main_v65_apply,
    val_main_v69_apply, val_main_v68_apply, val_main_call1_v0_apply, val_main_call1_cst_apply]
  rw [val_main_v52_apply]
  have e16 : idx_main_v53 (idx_main_v54 (ix2 r q)) = ix1 q := by idx_eq1
  have e19 : idx_main_v56 (idx_main_v57 (ix2 r q)) = ix1 q := by idx_eq1
  have e20 : idx_main_v62 (idx_main_v63 (ix2 r q)) = ix1 q := by idx_eq1
  have e17 : idx_main_v65 (idx_main_v66 (ix2 r q)) = ix1 q := by idx_eq1
  have e18 : idx_main_v68 (idx_main_v69 (ix2 r q)) = ix1 q := by idx_eq1
  have es : ∀ k : Fin 128, val_main_v50 (F := Ideal) x0 x1 x2 x3 x4 x5 x6 x7 x8 x9 x10 x11 x12 x13 x14 (lidx_main_v52 (ix2 r q) k) * val_main_v51 (F := Ideal) x15 (ridx_main_v52 (ix2 r q) k)
      = val_main_v50 (F := Ideal) x0 x1 x2 x3 x4 x5 x6 x7 x8 x9 x10 x11 x12 x13 x14 (ix2 r k) * x15 (ix2 q k) := fun k => by
    have el : lidx_main_v52 (ix2 r q) k = ix2 r k := by idx_eq2
    rw [el, val_main_v51_apply]
    have e51 : idx_main_v51 (ridx_main_v52 (ix2 r q) k) = ix2 q k := by idx_eq2
    rw [e51]
  rw [e16, e19, e20, e17, e18, Finset.sum_congr rfl (fun k _ => es k),
    show (FloatOps.ofBits FTy.f32 0#32 : Ideal .f32) = 0 from Ideal.ofBits_zero_f32]
  rfl

/-! ## The last stage -/

theorem scores_eq : val_main_v89 (F := Ideal) x0 x1 x2 x3 x4 x5 x6 x7 x8 x9 x10 x11 x12 x13 x14 x15 x16 x17 x18 x19 x20 x21 x22 = logits (val_main_v84 (F := Ideal) x0 x1 x2 x3 x4 x5 x6 x7 x8 x9 x10 x11 x12 x13 x14 x15 x16 x17 x18 x19 x20) x21 (vecFn x22) := by
  funext i
  obtain ⟨r, q, rfl⟩ : ∃ (r : Fin 100000) (q : Fin 40), i = ix2 r q := ⟨i 0, i 1, eq_ix2 i⟩
  rw [val_main_v89_apply, val_main_v88_apply, val_main_v87_apply, val_main_v86_apply]
  have e22 : idx_main_v87 (idx_main_v88 (ix2 r q)) = ix1 q := by idx_eq1
  have es : ∀ k : Fin 128, val_main_v84 (F := Ideal) x0 x1 x2 x3 x4 x5 x6 x7 x8 x9 x10 x11 x12 x13 x14 x15 x16 x17 x18 x19 x20 (lidx_main_v86 (ix2 r q) k) * val_main_v85 (F := Ideal) x21 (ridx_main_v86 (ix2 r q) k)
      = val_main_v84 (F := Ideal) x0 x1 x2 x3 x4 x5 x6 x7 x8 x9 x10 x11 x12 x13 x14 x15 x16 x17 x18 x19 x20 (ix2 r k) * x21 (ix2 q k) := fun k => by
    have el : lidx_main_v86 (ix2 r q) k = ix2 r k := by idx_eq2
    rw [el, val_main_v85_apply]
    have e85 : idx_main_v85 (ridx_main_v86 (ix2 r q) k) = ix2 q k := by idx_eq2
    rw [e85]
  rw [e22, Finset.sum_congr rfl (fun k _ => es k)]
  rfl

theorem output_eq : val_main_v90 (F := Ideal) x0 x1 x2 x3 x4 x5 x6 x7 x8 x9 x10 x11 x12 x13 x14 x15 x16 x17 x18 x19 x20 x21 x22 = logSoftmax (val_main_v89 (F := Ideal) x0 x1 x2 x3 x4 x5 x6 x7 x8 x9 x10 x11 x12 x13 x14 x15 x16 x17 x18 x19 x20 x21 x22) := by
  have hmax : ∀ r' : Fin 100000, val_main_call2_v0 (F := Ideal) x0 x1 x2 x3 x4 x5 x6 x7 x8 x9 x10 x11 x12 x13 x14 x15 x16 x17 x18 x19 x20 x21 x22 (ix1 r')
      = (Finset.univ : Finset (Fin 40)).fold max negInf (fun k => val_main_v89 (F := Ideal) x0 x1 x2 x3 x4 x5 x6 x7 x8 x9 x10 x11 x12 x13 x14 x15 x16 x17 x18 x19 x20 x21 x22 (ix2 r' k)) := fun r' => by
    unfold val_main_call2_v0
    exact HostRowMax.hostRowMax_apply (val_main_v89 (F := Ideal) x0 x1 x2 x3 x4 x5 x6 x7 x8 x9 x10 x11 x12 x13 x14 x15 x16 x17 x18 x19 x20 x21 x22) (val_main_call2_cst (F := Ideal))
      reducesTo_S100000x40_S100000_d1 (by decide) h_S_ r'
  have hshift : ∀ r' : Fin 100000, val_main_call2_v2 (F := Ideal) x0 x1 x2 x3 x4 x5 x6 x7 x8 x9 x10 x11 x12 x13 x14 x15 x16 x17 x18 x19 x20 x21 x22 (ix1 r') = rowShift (val_main_v89 (F := Ideal) x0 x1 x2 x3 x4 x5 x6 x7 x8 x9 x10 x11 x12 x13 x14 x15 x16 x17 x18 x19 x20 x21 x22) r' := fun r' => by
    rw [val_main_call2_v2_apply, val_main_call2_v1_apply, val_main_call2_cst_0_apply, hmax]
    rfl
  have h4 : ∀ (r' : Fin 100000) (k : Fin 40), val_main_call2_v4 (F := Ideal) x0 x1 x2 x3 x4 x5 x6 x7 x8 x9 x10 x11 x12 x13 x14 x15 x16 x17 x18 x19 x20 x21 x22 (ix2 r' k) = rowShift (val_main_v89 (F := Ideal) x0 x1 x2 x3 x4 x5 x6 x7 x8 x9 x10 x11 x12 x13 x14 x15 x16 x17 x18 x19 x20 x21 x22) r' := fun r' k => by
    rw [val_main_call2_v4_apply, val_main_call2_v3_apply]
    have e : idx_main_call2_v3 (idx_main_call2_v4 (ix2 r' k)) = ix1 r' := by idx_eq1
    rw [e]
    exact hshift r'
  have h5 : ∀ (r' : Fin 100000) (k : Fin 40), val_main_call2_v5 (F := Ideal) x0 x1 x2 x3 x4 x5 x6 x7 x8 x9 x10 x11 x12 x13 x14 x15 x16 x17 x18 x19 x20 x21 x22 (ix2 r' k)
      = val_main_v89 (F := Ideal) x0 x1 x2 x3 x4 x5 x6 x7 x8 x9 x10 x11 x12 x13 x14 x15 x16 x17 x18 x19 x20 x21 x22 (ix2 r' k) - rowShift (val_main_v89 (F := Ideal) x0 x1 x2 x3 x4 x5 x6 x7 x8 x9 x10 x11 x12 x13 x14 x15 x16 x17 x18 x19 x20 x21 x22) r' := fun r' k => by
    rw [val_main_call2_v5_apply, h4]
    rfl
  funext i
  obtain ⟨r, q, rfl⟩ : ∃ (r : Fin 100000) (q : Fin 40), i = ix2 r q := ⟨i 0, i 1, eq_ix2 i⟩
  rw [val_main_v90_apply, h5, val_main_call2_v10_apply, val_main_call2_v9_apply, val_main_call2_v8_apply, val_main_call2_v7_apply]
  have e8 : idx_main_call2_v8 (idx_main_call2_v10 (ix2 r q)) = ix1 r := by idx_eq1
  have es : ∀ k : Fin 40, val_main_call2_v6 (F := Ideal) x0 x1 x2 x3 x4 x5 x6 x7 x8 x9 x10 x11 x12 x13 x14 x15 x16 x17 x18 x19 x20 x21 x22 (idx_main_call2_v7 (ix1 r) k)
      = Ideal.exp (val_main_v89 (F := Ideal) x0 x1 x2 x3 x4 x5 x6 x7 x8 x9 x10 x11 x12 x13 x14 x15 x16 x17 x18 x19 x20 x21 x22 (ix2 r k) - rowShift (val_main_v89 (F := Ideal) x0 x1 x2 x3 x4 x5 x6 x7 x8 x9 x10 x11 x12 x13 x14 x15 x16 x17 x18 x19 x20 x21 x22) r) := fun k => by
    have e7 : idx_main_call2_v7 (ix1 r) k = ix2 r k := by idx_eq2
    rw [e7, val_main_call2_v6_apply, h5]
    exact Ideal.hostUnary_exp_def _
  rw [e8, Finset.sum_congr rfl (fun k _ => es k), val_main_call2_cst_1_apply,
    show (FloatOps.ofBits FTy.f32 0#32 : Ideal .f32) = 0 from Ideal.ofBits_zero_f32, zero_add, Ideal.hostUnary_log_def]
  rfl

/-! ## The whole reference -/

/-- The reference's result term is the network of its arguments. -/
theorem result_eq : val_main_v90 (F := Ideal) x0 x1 x2 x3 x4 x5 x6 x7 x8 x9 x10 x11 x12 x13 x14 x15 x16 x17 x18 x19 x20 x21 x22
    = net (aggR x5 x3 x4) (aggR x8 x6 x7) x0 x1 x2 x9 (vecFn x10) (vecFn x11) (vecFn x12) (vecFn x13) (vecFn x14)
        x15 (vecFn x16) (vecFn x17) (vecFn x18) (vecFn x19) (vecFn x20) x21 (vecFn x22) := by
  rw [output_eq, scores_eq, agg2_eq, hidden1_eq, agg1_eq, hidden0_eq, agg0_eq, first_eq]
  rfl

end Cert.ReferenceIdeal.RefValue

end
-- ==== Proof.lean ====
/-
  A three-layer graph convolution computed two ways is one function.

  The network: the node features `x` are scaled row by row by a column `M`, aggregated along the edges of a first graph,
  scaled by a column `AM`, passed through a dense layer with normalisation by running statistics and a rectifier;
  aggregated along the edges of a second graph and passed through a second such layer; aggregated again and passed through
  an output layer whose 40 scores per node go through the logarithm of the softmax (`Net.lean`, `Spec.lean`).

  The kernel program carries the four dense stages out in tiles of 5000 rows on the accelerator and leaves the sparse
  aggregations to the host; the reference is one line of whole-array host operations. Over exact extended-real
  arithmetic — a change of float format is the identity, a matrix product is a plain sum of products — both compute
  `net` of their arguments:

    * each tiled stage is row-local, so the block of 5000 rows a grid point writes back is that block of the stage applied
      to all rows, and the 20 blocks tile the 100000 rows (`Pay.lean`, `Stage0.lean` … `Stage3.lean`);
    * the host stretches between the stages are the same gather / product / scatter-add composite in both programs, and
      recast the per-feature parameters as one-row matrices (`KernelHost.lean`); opening the kernel's run segment by
      segment gives its result (`KernelRun.lean`, `KernelValue.lean`);
    * the reference's operations read at an index give the same entries: its first product is `M · x` against the kernel's
      `x · M` (commutativity), its dense layers contract against the transposed weights where the kernel contracts the
      second axes directly (`RefValue.lean`).

  No step uses that the inputs are finite: only commutativity of the product and the re-indexing of finite sums are used,
  which hold for all extended reals. The programs' frames (termination without fault, arguments unchanged) are the
  generated frame certificates; the idealized kernel is the kernel's own text read over exact arithmetic, so nothing is
  owed for the idealization.
-/
import proofs.«144697_j54065048323073_1_alg».proof.Defs
import proofs.«144697_j54065048323073_1_alg».proof.Proof.Gen.Kernel
import proofs.«144697_j54065048323073_1_alg».proof.Proof.Gen.KernelIdeal
import proofs.«144697_j54065048323073_1_alg».proof.Proof.Gen.ReferenceIdeal
import proofs.«144697_j54065048323073_1_alg».proof.Proof.Gen.Pre_finite_inputs
import proofs.«144697_j54065048323073_1_alg».proof.Proof.KernelFrame
import proofs.«144697_j54065048323073_1_alg».proof.Proof.KernelIdealFrame
import proofs.«144697_j54065048323073_1_alg».proof.Proof.ReferenceRun
import proofs.«144697_j54065048323073_1_alg».proof.Proof.ReferenceRead
import proofs.«144697_j54065048323073_1_alg».proof.Proof.KernelValue
import proofs.«144697_j54065048323073_1_alg».proof.Proof.RefValue
import Idealize.ShloMosaic.Adequacy
import Idealize.ShloMosaic.Init

noncomputable section

namespace Cert.Proof

open Idealize.ShloMosaic Idealize.SL.Sem Cert.GraphConv

/-- The kernel as printed runs, nothing faulting, and leaves its arguments unchanged. -/
theorem frame_kernel : Cert.frame_Kernel (hKernel := Cert.Kernel.Gen.facts) (hPre_finite_inputs := Cert.Pre_finite_inputs.Gen.facts) :=
  fun m ρ _ => Cert.Kernel.GenP.frame m ρ

/-- So does the kernel read over exact arithmetic. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- So does the reference: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments, the kernel's result array and the reference's both end at the network of
    the arguments: the kernel's by its run opened segment by segment, the reference's by its operations read one at a
    time; the two aggregations are the same composite of host operations in both programs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v90_eq, Cert.ReferenceIdeal.RefValue.result_eq]
  obtain ⟨h0, h1, h2, h3, h4, h5, h6, h7, h8, h9, h10, h11, h12, h13, h14, h15, h16, h17, h18, h19, h20, h21, h22⟩ := hagree c
  rw [h0, h1, h2, h3, h4, h5, h6, h7, h8, h9, h10, h11, h12, h13, h14, h15, h16, h17, h18, h19, h20, h21, h22]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
